-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S8192x1 : Shape := ⟨2, ![8192, 1]⟩
abbrev S512x4096 : Shape := ⟨2, ![512, 4096]⟩
abbrev S512x1 : Shape := ⟨2, ![512, 1]⟩
abbrev S512 : Shape := ⟨1, ![512]⟩
abbrev S1x8192 : Shape := ⟨2, ![1, 8192]⟩
abbrev S8192x8192 : Shape := ⟨2, ![8192, 8192]⟩
abbrev S2048x1024 : Shape := ⟨2, ![2048, 1024]⟩
abbrev S1024x1024 : Shape := ⟨2, ![1024, 1024]⟩
abbrev S2048x1 : Shape := ⟨2, ![2048, 1]⟩
abbrev S1x1024 : Shape := ⟨2, ![1, 1024]⟩

abbrev nBuf : Space → Nat
  | .hbm => 8
  | .vmem => 23
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .bf16⟩
  | .hbm, ⟨3, _⟩ => ⟨S8192x1, .f32⟩
  | .hbm, ⟨4, _⟩ => ⟨S8192x4096, .bf16⟩
  | .hbm, ⟨5, _⟩ => ⟨S8192x1, .f32⟩
  | .hbm, ⟨6, _⟩ => ⟨S1x8192, .f32⟩
  | .hbm, ⟨7, _⟩ => ⟨S8192x8192, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x1, .f32⟩
  | .local _ .vmem, ⟨5, _⟩ => ⟨S512x1, .f32⟩
  | .local _ .vmem, ⟨6, _⟩ => ⟨S512x4096, .f32⟩
  | .local _ .vmem, ⟨7, _⟩ => ⟨S512x4096, .f32⟩
  | .local _ .vmem, ⟨8, _⟩ => ⟨S512x4096, .bf16⟩
  | .local _ .vmem, ⟨9, _⟩ => ⟨S512x4096, .bf16⟩
  | .local _ .vmem, ⟨10, _⟩ => ⟨S512x1, .f32⟩
  | .local _ .vmem, ⟨11, _⟩ => ⟨S512x1, .f32⟩
  | .local _ .vmem, ⟨12, _⟩ => ⟨S2048x1024, .bf16⟩
  | .local _ .vmem, ⟨13, _⟩ => ⟨S2048x1024, .bf16⟩
  | .local _ .vmem, ⟨14, _⟩ => ⟨S1024x1024, .bf16⟩
  | .local _ .vmem, ⟨15, _⟩ => ⟨S1024x1024, .bf16⟩
  | .local _ .vmem, ⟨16, _⟩ => ⟨S2048x1, .f32⟩
  | .local _ .vmem, ⟨17, _⟩ => ⟨S2048x1, .f32⟩
  | .local _ .vmem, ⟨18, _⟩ => ⟨S1x1024, .f32⟩
  | .local _ .vmem, ⟨19, _⟩ => ⟨S1x1024, .f32⟩
  | .local _ .vmem, ⟨20, _⟩ => ⟨S2048x1024, .f32⟩
  | .local _ .vmem, ⟨21, _⟩ => ⟨S2048x1024, .f32⟩
  | .local _ .vmem, ⟨22, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg4_1 : Ref sig .tc := ⟨.vmem, 21, rfl⟩
abbrev cc2_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc2_sem4_0 : DmaSem sig := 20
abbrev cc2_sem4_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![4, 8, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S2048x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  reduces_S512x4096_S512 : S512x4096.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  transposes_S8192x1_S1x8192_1_0 : S8192x1.Transposes [1, 0] S1x8192
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2048x1_S2048x1024 : S2048x1.Broadcasts S2048x1024
  broadcasts_S1x1024_S2048x1024 : S1x1024.Broadcasts S2048x1024
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .bf16 = 32 ∨ (Rect.block (s := S8192x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .f32 = 32 ∨ (Rect.block (s := S8192x1) S512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S8192x4096.size a
  hwx1_0 : ∀ i : grid1.Coords, EltTy.bits .f32 = 32 ∨ (Rect.block (s := S8192x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S8192x4096.size a
  hwx1_1 : ∀ i : grid1.Coords, EltTy.bits .bf16 = 32 ∨ (Rect.block (s := S8192x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S8192x1.size a
  hwx1_2 : ∀ i : grid1.Coords, EltTy.bits .f32 = 32 ∨ (Rect.block (s := S8192x1) S512x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x4096.size a
  hwx2_0 : ∀ i : grid2.Coords, EltTy.bits .bf16 = 32 ∨ (Rect.block (s := S8192x4096) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x4096.size a
  hwx2_1 : ∀ i : grid2.Coords, EltTy.bits .bf16 = 32 ∨ (Rect.block (s := S8192x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S8192x1.size a
  hwx2_2 : ∀ i : grid2.Coords, EltTy.bits .f32 = 32 ∨ (Rect.block (s := S8192x1) S2048x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x8192.size a
  hwx2_3 : ∀ i : grid2.Coords, EltTy.bits .f32 = 32 ∨ (Rect.block (s := S1x8192) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1024.size a ≤ S8192x8192.size a
  hwx2_4 : ∀ i : grid2.Coords, EltTy.bits .f32 = 32 ∨ (Rect.block (s := S8192x8192) S2048x1024.size (cc2_transform_4 i) (hinb2_4 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x4096.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1_0) S512x4096.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1_1) S512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0_0) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1_0) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v3) S2048x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S8192x8192 : Shape := ⟨2, ![8192, 8192]⟩
abbrev S1x8192 : Shape := ⟨2, ![1, 8192]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x4096, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x8192, .f32⟩
  | .hbm, ⟨19, _⟩ => ⟨S1x8192, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call1_v0 : Ref sig .tc := ⟨.hbm, 10, rfl⟩
abbrev main_call1_cst : Ref sig .tc := ⟨.hbm, 11, rfl⟩
abbrev main_call1_v1 : Ref sig .tc := ⟨.hbm, 12, rfl⟩
abbrev main_call1_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩

abbrev nD : Nat := 1
abbrev τ : Topo := Topo.v7x

variable {F : FTy → Type} [FloatOps F]

class Facts₀ : Prop where
  reducesTo_S8192x4096_S8192_d1 : S8192x4096.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  dot_S8192x4096_S8192x4096_S8192x8192_1_1_0_0_n_n_wf : DotDims.WF S8192x4096 S8192x4096 S8192x8192 [1] [1] [0] [0] [] []

variable [Facts₀]

def dot_S8192x4096_S8192x4096_S8192x8192_1_1_0_0_n_n : DotDims S8192x4096 S8192x4096 S8192x8192 where
  lhsContracting := [1]
  rhsContracting := [1]
  lhsNonContracting := [0]
  rhsNonContracting := [0]
  lhsBatch := []
  rhsBatch := []
  wf := dot_S8192x4096_S8192x4096_S8192x8192_1_1_0_0_n_n_wf

class Facts : Prop extends Facts₀ where

variable [Facts]
-- ==== Proof.WFrameA.lean ====
/- The two row-norm kernels of the cosine-similarity program, one region each.

   Each of the first two kernel regions walks the 16 blocks of 512 rows of an [8192, 4096] array. At a block it
   reads the 512 rows whole; it writes the same rows, in the narrower float format, to its first output, and to its
   second output it writes, per row, the larger of the row's Euclidean norm (the square root of the sum of the
   squares along the row) and a small positive constant. Nothing is carried from one block to the next.

   For each region K, at any contents `V` of the core's buffers when the region is entered, this module gives: the
   block a window holds at a point (`iblkK`); what each output's staging buffer holds after the body, as the one
   store that fills it whole (`outK_1`, `outK_2`, and that the store covers the buffer, `coverK_1`, `coverK_2`);
   the body's triple (`sound_kernelK`); the pipeline's proof data (`datK`) with its projections; and the body
   obligation at every point (`body_obligationK`). Every statement is at an arbitrary float model `F`. -/
import proofs.«134577_j46729244180934_2_alg».proof.Proof.Gen.Kernel.Launch
import proofs.«134577_j46729244180934_2_alg».proof.Proof.Gen.Kernel.Skeleton
import proofs.«134577_j46729244180934_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 512 by 4096: the structural check recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when a region is entered: every statement below is at this parameter
variable (V : (c : Dev nD) → (b : Ref sig .tc) → Buf (Elt F) ((c : Thread nD τ).loc b))

/-! # Region 0: the row norms of `main_arg0`, at the entry contents `V` -/

/-! ## The windows' blocks -/

/-- Window `w`'s block at point `t`: the 512 rows `512 t … 512 t + 511` of its array, read off the array as the
    region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds the input's block at every point, for any proof data whose
    input array is `V`'s (`hA`) and whose body leaves that block in place (`hafter`): the block is fetched at
    every point, the window is never cut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

/-- All of a [512, 4096] buffer (the input block and the narrowed copy). -/
abbrev r0_0 : Rect S512x4096 := Rect.unit (s := S512x4096) ![0, 0] S512x4096.size inb_S512x4096_S512x4096_0_0
/-- All of a [512, 1] buffer (the column of norms). -/
abbrev r0_1 : Rect S512x1 := Rect.unit (s := S512x1) ![0, 0] S512x1.size inb_S512x1_S512x1_0_0

/-! ## What the body leaves in each output window's buffer -/

/-- The first output's staging buffer after the body, from the input block `x0`: its one store, of the block's
    entries in the narrower format. -/
def out0_1 (x0 : Vec F S512x4096 .f32) : Vec F S512x4096 .bf16 :=
  View.canon [⟨r0_0, k0_pay1 (View.ld x0 r0_0)⟩]

/-- That store is of the whole buffer, so it covers it. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

/-- The second output's staging buffer after the body, from the input block `x0`: its one store, per row the
    larger of the row's norm and the constant. -/
def out0_2 (x0 : Vec F S512x4096 .f32) : Vec F S512x1 .f32 :=
  View.canon [⟨r0_1, k0_pay2 (View.ld x0 r0_0)⟩]

/-- That store is of the whole buffer, so it covers it. -/
theorem cover0_2 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

/-! ## The body's triple -/

set_option maxHeartbeats 1000000 in
/-- The kernel body on whole staging memrefs — the input's at read contents `x0`, the two outputs' at anything —
    runs to the continuation holding the input's as it was and each output's at `out0_W x0`: the body reads the
    input whole, reads each output's buffer without using what it read, and stores each output whole once. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole) (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__cast_norm_kernel i arg1 harg1 arg2 harg2 arg3 harg3) K := by
  simp only [cc0__cast_norm_kernel_eq_skeleton]; unfold cc0__cast_norm_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of pipeline 0 on core `c`: the arrays as the region finds them (`V`); after the body at point
    `t` the input's buffer at its block and each output's at `out0_W` of that block; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current staging buffer holds the input's block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block (`before0_0`), so `sound_kernel0` applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the row norms of `main_arg1`, at the entry contents `V` -/

/-! ## The windows' blocks -/

/-- Window `w`'s block at point `t`: the 512 rows `512 t … 512 t + 511` of its array, read off the array as the
    region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds the input's block at every point, for any proof data whose
    input array is `V`'s (`hA`) and whose body leaves that block in place (`hafter`): the block is fetched at
    every point, the window is never cut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

/-- All of a [512, 4096] buffer (the input block and the narrowed copy). -/
abbrev r1_0 : Rect S512x4096 := Rect.unit (s := S512x4096) ![0, 0] S512x4096.size inb_S512x4096_S512x4096_0_0
/-- All of a [512, 1] buffer (the column of norms). -/
abbrev r1_1 : Rect S512x1 := Rect.unit (s := S512x1) ![0, 0] S512x1.size inb_S512x1_S512x1_0_0

/-! ## What the body leaves in each output window's buffer -/

/-- The first output's staging buffer after the body, from the input block `x0`: its one store, of the block's
    entries in the narrower format. -/
def out1_1 (x0 : Vec F S512x4096 .f32) : Vec F S512x4096 .bf16 :=
  View.canon [⟨r1_0, k1_pay1 (View.ld x0 r1_0)⟩]

/-- That store is of the whole buffer, so it covers it. -/
theorem cover1_1 (p0 : Vec F S512x4096 .bf16) (y : S512x4096.Idx) :
    ∃ pc ∈ ([⟨r1_0, p0⟩] : List (View.Piece (Elt F) S512x4096 .bf16)), y ∈ pc.1.set :=
  View.cover_of_tiled [⟨r1_0, p0⟩] S512x4096.size (by rfl) y

/-- The second output's staging buffer after the body, from the input block `x0`: its one store, per row the
    larger of the row's norm and the constant. -/
def out1_2 (x0 : Vec F S512x4096 .f32) : Vec F S512x1 .f32 :=
  View.canon [⟨r1_1, k1_pay2 (View.ld x0 r1_0)⟩]

/-- That store is of the whole buffer, so it covers it. -/
theorem cover1_2 (p0 : Vec F S512x1 .f32) (y : S512x1.Idx) :
    ∃ pc ∈ ([⟨r1_1, p0⟩] : List (View.Piece (Elt F) S512x1 .f32)), y ∈ pc.1.set :=
  View.cover_of_tiled [⟨r1_1, p0⟩] S512x1.size (by rfl) y

/-! ## The body's triple -/

set_option maxHeartbeats 1000000 in
/-- The kernel body on whole staging memrefs — the input's at read contents `x0`, the two outputs' at anything —
    runs to the continuation holding the input's as it was and each output's at `out1_W x0`: the body reads the
    input whole, reads each output's buffer without using what it read, and stores each output whole once. -/
theorem sound_kernel1 (c : Dev nD) (E : Set ℕ) (i : grid1.Coords) (arg1 : Memref sig .tc .vmem S512x4096 .f32) (harg1 : arg1.IsWhole) (arg2 : Memref sig .tc .vmem S512x4096 .bf16) (harg2 : arg2.IsWhole) (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0) ∗ owns (c : Thread nD τ) arg3 fullShare (out1_2 x0)) -∗ K ⟨⟩))
      ⊢ wp frame (wpE (defs₀ (F := F)) Variants.none c none) E (cc1__cast_norm_kernel i arg1 harg1 arg2 harg2 arg3 harg3) K := by
  simp only [cc1__cast_norm_kernel_eq_skeleton]; unfold cc1__cast_norm_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

/-! ## The pipeline's proof data -/

/-- The proof data of pipeline 1 on core `c`: the arrays as the region finds them (`V`); after the body at point
    `t` the input's buffer at its block and each output's at `out1_W` of that block; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]

/-- The input's current staging buffer holds the input's block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input's memref holds its block (`before1_0`), so `sound_kernel1` applies; the
    invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WR2Shared.lean ====
/-
  The matrix-product region (the third kernel launch): what its per-case runs and its accumulation are
  stated over. The grid is (4, 8, 4) — row tile, column tile, contraction block — walked with the
  contraction block innermost, so point `t` works on contraction block `t mod 4`. The body zeroes its
  accumulator when that block is 0, adds the block's product into the accumulator at every point, and
  when the block is 3 divides the accumulator by the outer product of the two norm vectors and stores
  the quotient into the output tile. So a point is in one of three cases: first block, middle block, last block.
-/
import proofs.«134577_j46729244180934_2_alg».proof.Proof.Gen.Kernel.Launch
import proofs.«134577_j46729244180934_2_alg».proof.Proof.Gen.Kernel.Skeleton
import proofs.«134577_j46729244180934_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    kept it from the point before (its block index then has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or
    kept it from the point before (its block index then has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or
    kept it from the point before (its block index then has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the pipeline fetched it there or
    kept it from the point before (its block index then has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end

/-! ## The two conditions of the body, over the grid -/

/-- "The contraction block is the first": the body's first conditional. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "The contraction block is the last": the body's second conditional. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Unless the contraction block is the last, the output tile is idle: nothing is stored into it, and it is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-! ## The staging memrefs and the accumulator -/

/-- One staging buffer of the output window, through which its contents are stated. -/
abbrev VO2_4 : View sig .tc .vmem S2048x1024 .f32 := (Memref.whole cc2_stg4_0 : Memref sig .tc .vmem S2048x1024 .f32).view
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1024 .f32 := win2_4.stage (cfg2.slots t 4)
abbrev hs2_4 (t : Fin cfg2.N) : (ms2_4 t).IsWhole := hstage2_4 ((cfg2.slots t 4).cast nbuf2_4)
/-- The accumulator: a whole scoped buffer of the kernel's own, passed beside the windows. -/
abbrev scM2_0 : Memref sig .tc .vmem S2048x1024 .f32 := Memref.whole cc2_scratch0
abbrev VS2_0 : View sig .tc .vmem S2048x1024 .f32 := scM2_0.view

/-- The core's scoped buffers that are no staging buffer of this launch, split at the accumulator. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The other scoped buffers, unopened. -/
abbrev others2 (c : Dev nD) : sProp 𝕄 :=
  Pipeline.scopedRestBut (Ix := Unit) (Name := ℕ) (U := UR sig nD τ) (Lvl := ℕ) (Val := Elt F) spec2 c [cc2_scratch0]

/-- The region's entry invariant with the accumulator as a memref owned at some contents. -/
theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA; rw [scopedRest2_split]; simp only [scM2_0, owns_whole]; try rfl

end Cert.Kernel.Hand

end
-- ==== Proof.WR2RunA.lean ====
/-
  The matrix-product body at a point whose contraction block is the first: the accumulator is zeroed, then the block's product is added; the output tile is left alone.
-/
import proofs.«134577_j46729244180934_2_alg».proof.Proof.WR2Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole staging memrefs: the inputs at their contents come back as they were; what the
    stores leave in the output tile and in the accumulator are the piece lists found while running the body. -/
noncomputable def kernelRun2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : cond2_0 i) (hc1 : ¬cond2_1 i)
    (x0 : Vec F S2048x1024 .bf16) (x1 : Vec F S1024x1024 .bf16) (x2 : Vec F S2048x1 .f32) (x3 : Vec F S1x1024 .f32) :
    Σ' (L4 : List (View.Piece (Elt F) S2048x1024 .f32)), { LS0 : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__cosine_matmul_kernel i arg3 harg3 arg4 harg4 arg5 harg5 arg6 harg6 arg7 harg7 arg8 harg8) K } := by
  refine ⟨[], ?_, fun xi4 E K => ?run⟩
  case run =>
    simp only [cc2__cosine_matmul_kernel_eq_skeleton]; unfold cc2__cosine_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.WR2RunB.lean ====
/-
  The matrix-product body at a point whose contraction block is neither first nor last: the block's product is added to the accumulator the point before left; the output tile is left alone.
-/
import proofs.«134577_j46729244180934_2_alg».proof.Proof.WR2Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole staging memrefs: the inputs at their contents come back as they were; what the
    stores leave in the output tile and in the accumulator are the piece lists found while running the body. -/
noncomputable def kernelRun2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : ¬cond2_1 i)
    (x0 : Vec F S2048x1024 .bf16) (x1 : Vec F S1024x1024 .bf16) (x2 : Vec F S2048x1 .f32) (x3 : Vec F S1x1024 .f32) (xs0 : Vec F S2048x1024 .f32) :
    Σ' (L4 : List (View.Piece (Elt F) S2048x1024 .f32)), { LS0 : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__cosine_matmul_kernel i arg3 harg3 arg4 harg4 arg5 harg5 arg6 harg6 arg7 harg7 arg8 harg8) K } := by
  refine ⟨[], ?_, fun xi4 E K => ?run⟩
  case run =>
    simp only [cc2__cosine_matmul_kernel_eq_skeleton]; unfold cc2__cosine_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.Kernel.Hand

end
-- ==== Proof.WR2RunC.lean ====
/-
  The matrix-product body at a point whose contraction block is the last: the block's product is added to the accumulator, and the accumulator divided by the outer product of the two norm vectors is stored into the output tile.
-/
import proofs.«134577_j46729244180934_2_alg».proof.Proof.WR2Shared

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole staging memrefs: the inputs at their contents come back as they were; what the
    stores leave in the output tile and in the accumulator are the piece lists found while running the body. -/
noncomputable def kernelRun2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : cond2_1 i)
    (x0 : Vec F S2048x1024 .bf16) (x1 : Vec F S1024x1024 .bf16) (x2 : Vec F S2048x1 .f32) (x3 : Vec F S1x1024 .f32) (xs0 : Vec F S2048x1024 .f32) :
    Σ' (L4 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2__cosine_matmul_kernel i arg3 harg3 arg4 harg4 arg5 harg5 arg6 harg6 arg7 harg7 arg8 harg8) K } := by
  refine ⟨?_, ?_, fun E K => ?run⟩
  case run =>
    simp only [cc2__cosine_matmul_kernel_eq_skeleton]; unfold cc2__cosine_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.Kernel.Hand

end
-- ==== Proof.WR2Frame.lean ====
/-
  The matrix-product region point by point: what the output tile and the accumulator hold after each grid
  point (by recursion on the point: the accumulator after a point is the case's run applied to the accumulator
  the point before left), the region's invariant (before the first point every scoped buffer at anything; after
  a point the accumulator at exactly that point's contents), the pipeline's proof data and the body obligation.
-/
import proofs.«134577_j46729244180934_2_alg».proof.Proof.WR2RunA
import proofs.«134577_j46729244180934_2_alg».proof.Proof.WR2RunB
import proofs.«134577_j46729244180934_2_alg».proof.Proof.WR2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three cases at a grid point -/

/-- The first-block run at point `t`, on the point's staging memrefs and input blocks. -/
abbrev runA (c : Dev nD) (t : Fin cfg2.N) (h0 : t.val % 4 = 0) (h1 : ¬t.val % 4 = 3) :=
  kernelRun2_A (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)
/-- The middle-block run at point `t`, from the accumulator contents `xs`. -/
abbrev runB (c : Dev nD) (t : Fin cfg2.N) (h0 : ¬t.val % 4 = 0) (h1 : ¬t.val % 4 = 3) (xs : Vec F S2048x1024 .f32) :=
  kernelRun2_B (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) xs
/-- The last-block run at point `t`, from the accumulator contents `xs`. -/
abbrev runC (c : Dev nD) (t : Fin cfg2.N) (h0 : ¬t.val % 4 = 0) (h1 : t.val % 4 = 3) (xs : Vec F S2048x1024 .f32) :=
  kernelRun2_C (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) xs

/-- A piece list read back as the contents of the accumulator, respectively of an output staging buffer. -/
abbrev readS (L : List (View.Piece (Elt F) S2048x1024 .f32)) : Vec F S2048x1024 .f32 :=
  VS2_0.read (Elt F) (VS2_0.writes (Elt F) VS2_0.junk L)
abbrev readO (L : List (View.Piece (Elt F) S2048x1024 .f32)) : Vec F S2048x1024 .f32 :=
  VO2_4.read (Elt F) (VO2_4.writes (Elt F) VO2_4.junk L)

/-- Each case's accumulator pieces cover the accumulator; the last case's output pieces cover the output tile. -/
theorem scoverA (c : Dev nD) (t : Fin cfg2.N) (h0 : t.val % 4 = 0) (h1 : ¬t.val % 4 = 3) (y : S2048x1024.Idx) :
    ∃ pc ∈ (runA V c t h0 h1).2.1, y ∈ pc.1.set :=
  View.cover_of_tiledL (runA V c t h0 h1).2.1 S2048x1024.size (by sl_kernel_rfl) y
theorem scoverB (c : Dev nD) (t : Fin cfg2.N) (h0 : ¬t.val % 4 = 0) (h1 : ¬t.val % 4 = 3) (xs : Vec F S2048x1024 .f32) (y : S2048x1024.Idx) :
    ∃ pc ∈ (runB V c t h0 h1 xs).2.1, y ∈ pc.1.set :=
  View.cover_of_tiledL (runB V c t h0 h1 xs).2.1 S2048x1024.size (by sl_kernel_rfl) y
theorem scoverC (c : Dev nD) (t : Fin cfg2.N) (h0 : ¬t.val % 4 = 0) (h1 : t.val % 4 = 3) (xs : Vec F S2048x1024 .f32) (y : S2048x1024.Idx) :
    ∃ pc ∈ (runC V c t h0 h1 xs).2.1, y ∈ pc.1.set :=
  View.cover_of_tiledL (runC V c t h0 h1 xs).2.1 S2048x1024.size (by sl_kernel_rfl) y
theorem ocoverC (c : Dev nD) (t : Fin cfg2.N) (h0 : ¬t.val % 4 = 0) (h1 : t.val % 4 = 3) (xs : Vec F S2048x1024 .f32) (y : S2048x1024.Idx) :
    ∃ pc ∈ (runC V c t h0 h1 xs).1, y ∈ pc.1.set :=
  View.cover_of_tiledL (runC V c t h0 h1 xs).1 S2048x1024.size (by sl_kernel_rfl) y

/-! ## What the output tile and the accumulator hold after each point -/

/-- After the body at position `n`: (the output tile's staging buffer, the accumulator). Where the case stores
    nothing into the output tile the first component is a placeholder nothing consults (the tile is idle there). -/
def outsAt2 (c : Dev nD) : (n : ℕ) → n < cfg2.N → Vec F S2048x1024 .f32 × Vec F S2048x1024 .f32
  | 0, hn => (readO (runA V c ⟨0, hn⟩ (Nat.zero_mod _) (show ¬(0 % 4 = 3) by decide)).1, readS (runA V c ⟨0, hn⟩ (Nat.zero_mod _) (show ¬(0 % 4 = 3) by decide)).2.1)
  | n + 1, hn =>
    if h0 : (n + 1) % 4 = 0 then
      (readO (runA V c ⟨n + 1, hn⟩ h0 (show ¬((n + 1) % 4 = 3) by omega)).1, readS (runA V c ⟨n + 1, hn⟩ h0 (show ¬((n + 1) % 4 = 3) by omega)).2.1)
    else if h1 : (n + 1) % 4 = 3 then
      (readO (runC V c ⟨n + 1, hn⟩ h0 h1 (outsAt2 c n (Nat.lt_of_succ_lt hn)).2).1, readS (runC V c ⟨n + 1, hn⟩ h0 h1 (outsAt2 c n (Nat.lt_of_succ_lt hn)).2).2.1)
    else
      (readO (runB V c ⟨n + 1, hn⟩ h0 h1 (outsAt2 c n (Nat.lt_of_succ_lt hn)).2).1, readS (runB V c ⟨n + 1, hn⟩ h0 h1 (outsAt2 c n (Nat.lt_of_succ_lt hn)).2).2.1)

theorem outsAt2_A (c : Dev nD) (t : Fin cfg2.N) (h0 : t.val % 4 = 0) (h1 : ¬t.val % 4 = 3) :
    outsAt2 V c t.val t.isLt = (readO (runA V c t h0 h1).1, readS (runA V c t h0 h1).2.1) := by
  obtain ⟨n, hn⟩ := t
  cases n with
  | zero => exact rfl
  | succ n => exact (dif_pos h0).trans rfl

theorem outsAt2_B (c : Dev nD) (t : Fin cfg2.N) (h0 : ¬t.val % 4 = 0) (h1 : ¬t.val % 4 = 3) :
    outsAt2 V c t.val t.isLt = (readO (runB V c t h0 h1 (outsAt2 V c (t.val - 1) (Nat.lt_of_le_of_lt (Nat.sub_le _ _) t.isLt)).2).1,
      readS (runB V c t h0 h1 (outsAt2 V c (t.val - 1) (Nat.lt_of_le_of_lt (Nat.sub_le _ _) t.isLt)).2).2.1) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (readO (runC V c t h0 h1 (outsAt2 V c (t.val - 1) (Nat.lt_of_le_of_lt (Nat.sub_le _ _) t.isLt)).2).1,
      readS (runC V c t h0 h1 (outsAt2 V c (t.val - 1) (Nat.lt_of_le_of_lt (Nat.sub_le _ _) t.isLt)).2).2.1) := by
  obtain ⟨n, hn⟩ := t
  cases n with
  | zero => exact absurd (Nat.zero_mod _) h0
  | succ n => exact (dif_neg h0).trans ((dif_pos h1).trans rfl)

/-! ## The region's invariant -/

/-- Before position `n`: at the first point every scoped buffer that is no staging buffer at anything; afterwards the
    accumulator at exactly what the point before left, the other scoped buffers at anything; the generator register at some state. -/
def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2_0 fullShare ((outsAt2 V c n hn).2) ∗ others2 (F := F) c) ∗ (∃ r, prngReg c r)) := rfl

theorem PhiS_pos (c : Dev nD) (n : ℕ) (h : n ≤ cfg2.N) (hz : n ≠ 0) :
    PhiS V c n h = iprop(iprop(owns (c : Thread nD τ) scM2_0 fullShare ((outsAt2 V c (n - 1) (by omega)).2) ∗ others2 (F := F) c) ∗ (∃ r, prngReg c r)) := by
  cases n with
  | zero => exact absurd rfl hz
  | succ n => rfl

/-! ## The pipeline's proof data -/

/-- The arrays as the region finds them; after the body each input's buffer at its block and the output tile's at
    `outsAt2`; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]

set_option maxHeartbeats 4800000 in
/-- The body at any point: the inputs' memrefs hold their blocks; the point's contraction block says which case it is in;
    the invariant hands the body the accumulator at what the point before left (at anything at the first point) and
    takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  rw [leaves2_0, leaves2_1, leaves2_2, leaves2_3]
  have hN : t.val < 128 := lt_of_lt_of_eq t.isLt (show cfg2.N = 128 from N_2)
  by_cases h0 : t.val % 4 = 0
  · have h1 : ¬t.val % 4 = 3 := by omega
    rw [Dat.leavesExact_idle (dat2 V c) 4 t (idleAt2_4 t (fun h => h1 ((hcond2_1 t).mp h))) (noFlush2_4 t (fun h => h1 ((hcond2_1 t).mp h)))]
    rw [outsAt2_A V c t h0 h1]
    (try dsimp only)
    by_cases hz : t.val = 0
    · rw [PhiS_castSucc V c t, PhiS_zero V c _ _ hz, PhiA2_eq]
      iintro ⟨⟨⟨HS0, Hoth⟩, Hg⟩, Ho, ⟨%d0, H0⟩, ⟨%d1, H1⟩, ⟨%d2, H2⟩, ⟨%d3, H3⟩, ⟨%d4, H4⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverA V c t h0 h1)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverA V c t h0 h1)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 4 = 3
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((runC V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverC V c t h0 h1 _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (ocoverC V c t h0 h1 _)
    · rw [Dat.leavesExact_idle (dat2 V c) 4 t (idleAt2_4 t (fun h => h1 ((hcond2_1 t).mp h))) (noFlush2_4 t (fun h => h1 ((hcond2_1 t).mp h)))]
      rw [outsAt2_B V c t h0 h1]
      (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((runB V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverB V c t h0 h1 _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the entry invariant back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨HS0, Hoth⟩, Hg⟩
  isplitl [HS0 Hoth]
  · isplitl [HS0]
    · iexists _; iexact HS0
    iexact Hoth
  iexact Hg

theorem hout2 (c : Dev nD) : (dat2 V c).Φ (Fin.last cfg2.N) ⊢ Pipeline.ΦA spec2 c :=
  Phi_out2 V c _ (by rw [Fin.val_last]; have : cfg2.N = 128 := N_2; omega)

end

end Cert.Kernel.Hand

end
-- ==== Proof.WMain.lean ====
/-
  The whole program's run. @main is: the cast-and-norm launch on `x`, the same launch on `weights`, the host's
  transpose of the weights' norm column into a row, and the matrix-product launch. The contents of every unscoped
  buffer at each of the four boundaries are a fold from the launch memory: a launch leaves its windows' arrays at
  what its write-backs leave (the inputs as found) and every other buffer as found; the host line writes its own
  result buffer only. Every argument array therefore ends as launched, and the result buffer ends at what the
  matrix-product launch's write-backs leave in it.
-/
import proofs.«134577_j46729244180934_2_alg».proof.Proof.WFrameA
import proofs.«134577_j46729244180934_2_alg».proof.Proof.WR2Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch (the first launch's entry). -/
abbrev WA : Dev nD → Valuation τ sig (Elt F) := fun c b => m (c, b)
abbrev VA : (c : Dev nD) → (b : Ref sig .tc) → Buf (Elt F) ((c : Thread nD τ).loc b) := fun c b => WA m c b

/-- After the first launch (the second launch's entry). -/
def WB (c : Dev nD) : Valuation τ sig (Elt F) :=
  Pipeline.withArrays spec0 c (WA m c) fun w => (dat0 (VA m) c).arrAt w cfg0.N
theorem WB_arr (c : Dev nD) (w : Fin cfg0.W) :
    WB m c (Proc.devRef .tc (Pipeline.arrRef spec0 w)) = (dat0 (VA m) c).arrAt w cfg0.N := by
  unfold WB; exact Pipeline.withArrays_arr spec0 launch0.win.arr_inj c _ _ w
theorem WB_of_ne (c : Dev nD) (b : Ref sig .tc) (hb : ∀ w, Pipeline.arrRef spec0 w ≠ b) :
    WB m c (Proc.devRef .tc b) = WA m c (Proc.devRef .tc b) := by
  unfold WB; exact Pipeline.withArrays_of_ne spec0 c _ _ b hb
/-- The same read at the TensorCore's references. -/
abbrev VB : (c : Dev nD) → (b : Ref sig .tc) → Buf (Elt F) ((c : Thread nD τ).loc b) := fun c b => WB m c b
theorem hF0 (c : Dev nD) (w : Fin cfg0.W) : (dat0 (VA m) c).arrAt w cfg0.N = VB m c (Pipeline.arrRef spec0 w) :=
  (WB_arr m c w).symm
theorem hrest0 (c : Dev nD) : ∀ b, b ∉ Finset.univ.image (Pipeline.arrRef spec0) → VB m c b = VA m c b :=
  fun b hb => WB_of_ne m c b fun w e => hb (Finset.mem_image.mpr ⟨w, Finset.mem_univ _, e⟩)

/-- After the second launch. -/
def WB2 (c : Dev nD) : Valuation τ sig (Elt F) :=
  Pipeline.withArrays spec1 c (WB m c) fun w => (dat1 (VB m) c).arrAt w cfg1.N
theorem WB2_arr (c : Dev nD) (w : Fin cfg1.W) :
    WB2 m c (Proc.devRef .tc (Pipeline.arrRef spec1 w)) = (dat1 (VB m) c).arrAt w cfg1.N := by
  unfold WB2; exact Pipeline.withArrays_arr spec1 launch1.win.arr_inj c _ _ w
theorem WB2_of_ne (c : Dev nD) (b : Ref sig .tc) (hb : ∀ w, Pipeline.arrRef spec1 w ≠ b) :
    WB2 m c (Proc.devRef .tc b) = WB m c (Proc.devRef .tc b) := by
  unfold WB2; exact Pipeline.withArrays_of_ne spec1 c _ _ b hb
/-- The same read at the TensorCore's references. -/
abbrev VB2 : (c : Dev nD) → (b : Ref sig .tc) → Buf (Elt F) ((c : Thread nD τ).loc b) := fun c b => WB2 m c b
theorem hF1 (c : Dev nD) (w : Fin cfg1.W) : (dat1 (VB m) c).arrAt w cfg1.N = VB2 m c (Pipeline.arrRef spec1 w) :=
  (WB2_arr m c w).symm
theorem hrest1 (c : Dev nD) : ∀ b, b ∉ Finset.univ.image (Pipeline.arrRef spec1) → VB2 m c b = VB m c b :=
  fun b hb => WB2_of_ne m c b fun w e => hb (Finset.mem_image.mpr ⟨w, Finset.mem_univ _, e⟩)

/-- After the host's transpose (the matrix-product launch's entry). -/
abbrev WC : Dev nD → Valuation τ sig (Elt F) := fun c => StableHlo.after hostOps2 (WB2 m c)
abbrev VC : (c : Dev nD) → (b : Ref sig .tc) → Buf (Elt F) ((c : Thread nD τ).loc b) := fun c b => WC m c b

/-- After the matrix-product launch: the end. -/
def WD (c : Dev nD) : Valuation τ sig (Elt F) :=
  Pipeline.withArrays spec2 c (WC m c) fun w => (dat2 (VC m) c).arrAt w cfg2.N
theorem WD_arr (c : Dev nD) (w : Fin cfg2.W) :
    WD m c (Proc.devRef .tc (Pipeline.arrRef spec2 w)) = (dat2 (VC m) c).arrAt w cfg2.N := by
  unfold WD; exact Pipeline.withArrays_arr spec2 launch2.win.arr_inj c _ _ w
theorem WD_of_ne (c : Dev nD) (b : Ref sig .tc) (hb : ∀ w, Pipeline.arrRef spec2 w ≠ b) :
    WD m c (Proc.devRef .tc b) = WC m c (Proc.devRef .tc b) := by
  unfold WD; exact Pipeline.withArrays_of_ne spec2 c _ _ b hb
/-- The same read at the TensorCore's references. -/
abbrev VD : (c : Dev nD) → (b : Ref sig .tc) → Buf (Elt F) ((c : Thread nD τ).loc b) := fun c b => WD m c b
theorem hF2 (c : Dev nD) (w : Fin cfg2.W) : (dat2 (VC m) c).arrAt w cfg2.N = VD m c (Pipeline.arrRef spec2 w) :=
  (WD_arr m c w).symm
theorem hrest2 (c : Dev nD) : ∀ b, b ∉ Finset.univ.image (Pipeline.arrRef spec2) → VD m c b = VC m c b :=
  fun b hb => WD_of_ne m c b fun w e => hb (Finset.mem_image.mpr ⟨w, Finset.mem_univ _, e⟩)

/-! ## The arguments end as launched -/

theorem WD_main_arg0 (c : Dev nD) : WD m c (Proc.devRef .tc main_arg0) = m ((c : Thread nD τ).loc main_arg0) :=
  calc WD m c (Proc.devRef .tc main_arg0)
    _ = WC m c (Proc.devRef .tc main_arg0) := WD_of_ne m c main_arg0 (by decide)
    _ = WB2 m c (Proc.devRef .tc main_arg0) := StableHlo.after_of_forall_not_mem (b := Proc.devRef .tc main_arg0) _ _ (List.forall_iff_forall_mem.mp (by
          simp only [hostOps2, List.Forall, StableHlo.unary_writes, Finset.mem_singleton]
          exact StableHlo.devRef_ne_of_ne (by decide)))
    _ = WB m c (Proc.devRef .tc main_arg0) := WB2_of_ne m c main_arg0 (by decide)
    _ = WA m c (Proc.devRef .tc main_arg0) := (WB_arr m c 0).trans (((dat0 (VA m) c).arrAt_in 0 rfl _).trans (A_eq0 (VA m) c 0))
    _ = m ((c : Thread nD τ).loc main_arg0) := rfl

theorem WD_main_arg1 (c : Dev nD) : WD m c (Proc.devRef .tc main_arg1) = m ((c : Thread nD τ).loc main_arg1) :=
  calc WD m c (Proc.devRef .tc main_arg1)
    _ = WC m c (Proc.devRef .tc main_arg1) := WD_of_ne m c main_arg1 (by decide)
    _ = WB2 m c (Proc.devRef .tc main_arg1) := StableHlo.after_of_forall_not_mem (b := Proc.devRef .tc main_arg1) _ _ (List.forall_iff_forall_mem.mp (by
          simp only [hostOps2, List.Forall, StableHlo.unary_writes, Finset.mem_singleton]
          exact StableHlo.devRef_ne_of_ne (by decide)))
    _ = WB m c (Proc.devRef .tc main_arg1) := (WB2_arr m c 0).trans (((dat1 (VB m) c).arrAt_in 0 rfl _).trans (A_eq1 (VB m) c 0))
    _ = WA m c (Proc.devRef .tc main_arg1) := WB_of_ne m c main_arg1 (by decide)
    _ = m ((c : Thread nD τ).loc main_arg1) := rfl

/-! ## The proof data family and the thread state -/

abbrev adm : (p : Fin 3) → (pcfgs (F := F) p).Adm := fun p => (cfgs p).toPCfg_adm
/-- Every launch's proof data, each at its entry contents. -/
def pdats : (p : Fin 3) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
  | ⟨2, _⟩ => fun c => dat2 (VC m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (WD m c) ∗ ∃ r, prngReg c r)

/-! ## The launches as segments -/

set_option backward.isDefEq.respectTransparency.types false in
/-- Region 0 over the thread state: entered from every unscoped buffer at `WA`, left at `WB`. Its arrays are split
    out of the unscoped buffers and put back at the contents the write-backs leave; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (WA m c) ∗ R c)
  post c := iprop(StableHlo.held (c : Thread nD τ) (Pipeline.ucRefs τ sig) (WB m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `WB`, left at `WB2`. Its arrays are split
    out of the unscoped buffers and put back at the contents the write-backs leave; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (WB m c) ∗ R c)
  post c := iprop(StableHlo.held (c : Thread nD τ) (Pipeline.ucRefs τ sig) (WB2 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VB2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `WC`, left at `WD`. Its arrays are split
    out of the unscoped buffers and put back at the contents the write-backs leave; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VC m) c).loose
  hwaits := Pipeline.hwaits_of_owed_zero _ _ _ _ L lv 2 fun _ _ => rfl
  pre c := iprop(StableHlo.held (c : Thread nD τ) (Pipeline.ucRefs τ sig) (WC m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VC m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VC m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec2 c ∗ ∃ r, prngReg c r) ⊢ (dat2 (VC m) c).Φ 0 := by
      have := hin2 (VC m) c; unfold Pipeline.ΦA at this; exact this
    rw [show (pdats m 2 c).Φ 0 = (dat2 (VC m) c).Φ 0 from rfl]
    iintro ⟨Hp, -, Hr⟩
    iapply h
    isplitl [Hr]; · iexact Hr
    iexact Hp
  hout c := by
    have h : (dat2 (VC m) c).Φ (Fin.last cfg2.N) ⊢ iprop(Pipeline.scopedRest spec2 c ∗ ∃ r, prngReg c r) := by
      have := hout2 (VC m) c; unfold Pipeline.ΦA at this; exact this
    rw [Pipeline.ownSems0_none, show (pdats m 2 c).Φ (Fin.last _) = (dat2 (VC m) c).Φ (Fin.last cfg2.N) from rfl]
    exact h.trans (by
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VC m c) (VD m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (reg0 m),
    .region (reg1 m),
    .host (hseg hostOps2 hostOps2_sub hostOps2_fresh' (WB2 m)),
    .region (reg2 m) ]
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and every final memory holds each unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = WD m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WA m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (WA m c)
        from Pipeline.unscopedBufs_held c (WA m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WD m c b)
    (hfin := fun c s' => by
      iintro ⟨⟨Hh, -⟩, HSI⟩
      unfold StableHlo.held
      imodintro
      iapply (pointsTo_read_all (Pipeline.ucRefs τ sig) (fun b => (((c : Thread nD τ)).1, b)) (WD m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (WD_main_arg0 m c),
     (h c _ (mem_uc main_arg1 (by decide))).trans (WD_main_arg1 m c)⟩) (run_all m ρ)

/-- The run with the result named: the result buffer ends at what the matrix-product launch's write-backs leave in its
    output array, and the arguments end as launched. -/
theorem run_value (ρ : Dev nD → PrngReg) : θ_run defs (onTc (τ := τ) (main (F := F))) ⟨m, fun _ => 0, ρ⟩ (fun r => ∀ c : Dev nD,
      r.2.mem ((c.tc : Thread nD τ).loc main_v3) = (dat2 (VC m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v3 (by decide))).trans (WD_arr m c 4),
     (h c _ (mem_uc main_arg0 (by decide))).trans (WD_main_arg0 m c),
     (h c _ (mem_uc main_arg1 (by decide))).trans (WD_main_arg1 m c)⟩) (run_all m ρ)

end Cert.Kernel.Hand

end
-- ==== Proof.FrameA.lean ====
/- The two row-norm kernels of the cosine-similarity program, one region each.

   Each of the first two kernel regions walks the 16 blocks of 512 rows of an [8192, 4096] array. At a block it
   reads the 512 rows whole; it writes the same rows, in the narrower float format, to its first output, and to its
   second output it writes, per row, the larger of the row's Euclidean norm (the square root of the sum of the
   squares along the row) and a small positive constant. Nothing is carried from one block to the next.

   For each region K, at any contents `V` of the core's buffers when the region is entered, this module gives: the
   block a window holds at a point (`iblkK`); what each output's staging buffer holds after the body, as the one
   store that fills it whole (`outK_1`, `outK_2`, and that the store covers the buffer, `coverK_1`, `coverK_2`);
   the body's triple (`sound_kernelK`); the pipeline's proof data (`datK`) with its projections; and the body
   obligation at every point (`body_obligationK`). Every statement is at an arbitrary float model `F`. -/
import proofs.«134577_j46729244180934_2_alg».proof.Proof.Gen.KernelIdeal.Launch
import proofs.«134577_j46729244180934_2_alg».proof.Proof.Gen.KernelIdeal.Skeleton
import proofs.«134577_j46729244180934_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 512 by 4096: the structural check recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when a region is entered: every statement below is at this parameter
variable (V : (c : Dev nD) → (b : Ref sig .tc) → Buf (Elt F) ((c : Thread nD τ).loc b))

/-! # Region 0: the row norms of `main_arg0`, at the entry contents `V` -/

/-! ## The windows' blocks -/

/-- Window `w`'s block at point `t`: the 512 rows `512 t … 512 t + 511` of its array, read off the array as the
    region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds the input's block at every point, for any proof data whose
    input array is `V`'s (`hA`) and whose body leaves that block in place (`hafter`): the block is fetched at
    every point, the window is never cut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

/-- All of a [512, 4096] buffer (the input block and the narrowed copy). -/
abbrev r0_0 : Rect S512x4096 := Rect.unit (s := S512x4096) ![0, 0] S512x4096.size inb_S512x4096_S512x4096_0_0
/-- All of a [512, 1] buffer (the column of norms). -/
abbrev r0_1 : Rect S512x1 := Rect.unit (s := S512x1) ![0, 0] S512x1.size inb_S512x1_S512x1_0_0

/-! ## What the body leaves in each output window's buffer -/

/-- The first output's staging buffer after the body, from the input block `x0`: its one store, of the block's
    entries in the narrower format. -/
def out0_1 (x0 : Vec F S512x4096 .f32) : Vec F S512x4096 .bf16 :=
  View.canon [⟨r0_0, k0_pay1 (View.ld x0 r0_0)⟩]

/-- That store is of the whole buffer, so it covers it. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

/-- The second output's staging buffer after the body, from the input block `x0`: its one store, per row the
    larger of the row's norm and the constant. -/
def out0_2 (x0 : Vec F S512x4096 .f32) : Vec F S512x1 .f32 :=
  View.canon [⟨r0_1, k0_pay2 (View.ld x0 r0_0)⟩]

/-- That store is of the whole buffer, so it covers it. -/
theorem cover0_2 (p0 : Vec F S512x1 .f32) (y : S512x1.Idx) :
    ∃ pc ∈ ([⟨r0_1, p0⟩] : List (View.Piece (Elt F) S512x1 .f32)), y ∈ pc.1.set :=
  View.cover_of_tiled [⟨r0_1, p0⟩] S512x1.size (by rfl) y

/-! ## The body's triple -/

set_option maxHeartbeats 1000000 in
/-- The kernel body on whole staging memrefs — the input's at read contents `x0`, the two outputs' at anything —
    runs to the continuation holding the input's as it was and each output's at `out0_W x0`: the body reads the
    input whole, reads each output's buffer without using what it read, and stores each output whole once. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole) (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__cast_norm_kernel i arg1 harg1 arg2 harg2 arg3 harg3) K := by
  simp only [cc0__cast_norm_kernel_eq_skeleton]; unfold cc0__cast_norm_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-! ## The pipeline's proof data -/

/-- The proof data of pipeline 0 on core `c`: the arrays as the region finds them (`V`); after the body at point
    `t` the input's buffer at its block and each output's at `out0_W` of that block; the invariant the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- The input's current staging buffer holds the input's block at every point. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input's memref holds its block (`before0_0`), so `sound_kernel0` applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # Region 1: the row norms of `main_arg1`, at the entry contents `V` -/

/-! ## The windows' blocks -/

/-- Window `w`'s block at point `t`: the 512 rows `512 t … 512 t + 511` of its array, read off the array as the
    region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds the input's block at every point, for any proof data whose
    input array is `V`'s (`hA`) and whose body leaves that block in place (`hafter`): the block is fetched at
    every point, the window is never cut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer whole -/

/-- All of a [512, 4096] buffer (the input block and the narrowed copy). -/
abbrev r1_0 : Rect S512x4096 := Rect.unit (s := S512x4096) ![0, 0] S512x4096.size inb_S512x4096_S512x4096_0_0
/-- All of a [512, 1] buffer (the column of norms). -/
abbrev r1_1 : Rect S512x1 := Rect.unit (s := S512x1) ![0, 0] S512x1.size inb_S512x1_S512x1_0_0

/-! ## What the body leaves in each output window's buffer -/

/-- The first output's staging buffer after the body, from the input block `x0`: its one store, of the block's
    entries in the narrower format. -/
def out1_1 (x0 : Vec F S512x4096 .f32) : Vec F S512x4096 .bf16 :=
  View.canon [⟨r1_0, k1_pay1 (View.ld x0 r1_0)⟩]

/-- That store is of the whole buffer, so it covers it. -/
theorem cover1_1 (p0 : Vec F S512x4096 .bf16) (y : S512x4096.Idx) :
    ∃ pc ∈ ([⟨r1_0, p0⟩] : List (View.Piece (Elt F) S512x4096 .bf16)), y ∈ pc.1.set :=
  View.cover_of_tiled [⟨r1_0, p0⟩] S512x4096.size (by rfl) y

/-- The second output's staging buffer after the body, from the input block `x0`: its one store, per row the
    larger of the row's norm and the constant. -/
def out1_2 (x0 : Vec F S512x4096 .f32) : Vec F S512x1 .f32 :=
  View.canon [⟨r1_1, k1_pay2 (View.ld x0 r1_0)⟩]

/-- That store is of the whole buffer, so it covers it. -/
theorem cover1_2 (p0 : Vec F S512x1 .f32) (y : S512x1.Idx) :
    ∃ pc ∈ ([⟨r1_1, p0⟩] : List (View.Piece (Elt F) S512x1 .f32)), y ∈ pc.1.set :=
  View.cover_of_tiled [⟨r1_1, p0⟩] S512x1.size (by rfl) y

/-! ## The body's triple -/

set_option maxHeartbeats 1000000 in
/-- The kernel body on whole staging memrefs — the input's at read contents `x0`, the two outputs' at anything —
    runs to the continuation holding the input's as it was and each output's at `out1_W x0`: the body reads the
    input whole, reads each output's buffer without using what it read, and stores each output whole once. -/
theorem sound_kernel1 (c : Dev nD) (E : Set ℕ) (i : grid1.Coords) (arg1 : Memref sig .tc .vmem S512x4096 .f32) (harg1 : arg1.IsWhole) (arg2 : Memref sig .tc .vmem S512x4096 .bf16) (harg2 : arg2.IsWhole) (arg3 : Memref sig .tc .vmem S512x1 .f32) (harg3 : arg3.IsWhole)
    (x0 : Vec F S512x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out1_1 x0) ∗ owns (c : Thread nD τ) arg3 fullShare (out1_2 x0)) -∗ K ⟨⟩))
      ⊢ wp frame (wpE (defs₀ (F := F)) Variants.none c none) E (cc1__cast_norm_kernel i arg1 harg1 arg2 harg2 arg3 harg3) K := by
  simp only [cc1__cast_norm_kernel_eq_skeleton]; unfold cc1__cast_norm_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover1_1 _)
  iexists _; isplitr
  swap; · iexact H2
  ipureintro
  exact View.read_writes_eq_canon _ _ _ (cover1_2 _)

/-! ## The pipeline's proof data -/

/-- The proof data of pipeline 1 on core `c`: the arrays as the region finds them (`V`); after the body at point
    `t` the input's buffer at its block and each output's at `out1_W` of that block; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => out1_1 (iblk1 V c 0 t)
    | ⟨2, _⟩ => out1_2 (iblk1 V c 0 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = out1_1 (iblk1 V c 0 t) := by dsimp only [dat1]
theorem after1_2 (c : Dev nD) (t : Fin cfg1.N) : (dat1 V c).after 2 t = out1_2 (iblk1 V c 0 t) := by dsimp only [dat1]

/-- The input's current staging buffer holds the input's block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the input's memref holds its block (`before1_0`), so `sound_kernel1` applies; the
    invariant and the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.R2Shared.lean ====
/-
  The matrix-product region (the third kernel launch): what its per-case runs and its accumulation are
  stated over. The grid is (4, 8, 4) — row tile, column tile, contraction block — walked with the
  contraction block innermost, so point `t` works on contraction block `t mod 4`. The body zeroes its
  accumulator when that block is 0, adds the block's product into the accumulator at every point, and
  when the block is 3 divides the accumulator by the outer product of the two norm vectors and stores
  the quotient into the output tile. So a point is in one of three cases: first block, middle block, last block.
-/
import proofs.«134577_j46729244180934_2_alg».proof.Proof.Gen.KernelIdeal.Launch
import proofs.«134577_j46729244180934_2_alg».proof.Proof.Gen.KernelIdeal.Skeleton
import proofs.«134577_j46729244180934_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    kept it from the point before (its block index then has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or
    kept it from the point before (its block index then has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or
    kept it from the point before (its block index then has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, whether the pipeline fetched it there or
    kept it from the point before (its block index then has not moved). -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end

/-! ## The two conditions of the body, over the grid -/

/-- "The contraction block is the first": the body's first conditional. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 4 = 0 :=
  (by decide +kernel : ∀ t : Fin grid2.N, cond2_0 (grid2.coords t) ↔ t.val % 4 = 0)

/-- "The contraction block is the last": the body's second conditional. -/
abbrev cond2_1 (i : grid2.Coords) : Prop := k2_cond2 i = 1#1
theorem hcond2_1 : ∀ t : Fin cfg2.N, cond2_1 (grid2.coords t) ↔ t.val % 4 = 3 :=
  (by decide +kernel : ∀ t : Fin grid2.N, cond2_1 (grid2.coords t) ↔ t.val % 4 = 3)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
/-- Unless the contraction block is the last, the output tile is idle: nothing is stored into it, and it is not written back. -/
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-! ## The staging memrefs and the accumulator -/

/-- One staging buffer of the output window, through which its contents are stated. -/
abbrev VO2_4 : View sig .tc .vmem S2048x1024 .f32 := (Memref.whole cc2_stg4_0 : Memref sig .tc .vmem S2048x1024 .f32).view
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1024 .f32 := win2_4.stage (cfg2.slots t 4)
abbrev hs2_4 (t : Fin cfg2.N) : (ms2_4 t).IsWhole := hstage2_4 ((cfg2.slots t 4).cast nbuf2_4)
/-- The accumulator: a whole scoped buffer of the kernel's own, passed beside the windows. -/
abbrev scM2_0 : Memref sig .tc .vmem S2048x1024 .f32 := Memref.whole cc2_scratch0
abbrev VS2_0 : View sig .tc .vmem S2048x1024 .f32 := scM2_0.view

/-- The core's scoped buffers that are no staging buffer of this launch, split at the accumulator. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f)
          ∗ Pipeline.scopedRestBut (Ix := Unit) (Name := ℕ) (U := UR sig nD τ) (Lvl := ℕ) (Val := Elt F) spec2 c [cc2_scratch0]) :=
  Pipeline.scopedRest_split_of_list spec2 c [cc2_scratch0] (by decide) (by decide)

/-- The other scoped buffers, unopened. -/
abbrev others2 (c : Dev nD) : sProp 𝕄 :=
  Pipeline.scopedRestBut (Ix := Unit) (Name := ℕ) (U := UR sig nD τ) (Lvl := ℕ) (Val := Elt F) spec2 c [cc2_scratch0]

/-- The region's entry invariant with the accumulator as a memref owned at some contents. -/
theorem PhiA2_eq (c : Dev nD) :
    (Pipeline.ΦA spec2 c : sProp 𝕄)
      = iprop(iprop((∃ d, owns (c : Thread nD τ) scM2_0 fullShare d) ∗ others2 (F := F) c) ∗ (∃ r, prngReg c r)) := by
  unfold Pipeline.ΦA; rw [scopedRest2_split]; simp only [scM2_0, owns_whole]; try rfl

end Cert.KernelIdeal.Hand

end
-- ==== Proof.R2RunA.lean ====
/-
  The matrix-product body at a point whose contraction block is the first: the accumulator is zeroed, then the block's product is added; the output tile is left alone.
-/
import proofs.«134577_j46729244180934_2_alg».proof.Proof.R2Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole staging memrefs: the inputs at their contents come back as they were; what the
    stores leave in the output tile and in the accumulator are the piece lists found while running the body. -/
noncomputable def kernelRun2_A (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : cond2_0 i) (hc1 : ¬cond2_1 i)
    (x0 : Vec F S2048x1024 .bf16) (x1 : Vec F S1024x1024 .bf16) (x2 : Vec F S2048x1 .f32) (x3 : Vec F S1x1024 .f32) :
    Σ' (L4 : List (View.Piece (Elt F) S2048x1024 .f32)), { LS0 : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__cosine_matmul_kernel i arg3 harg3 arg4 harg4 arg5 harg5 arg6 harg6 arg7 harg7 arg8 harg8) K } := by
  refine ⟨[], ?_, fun xi4 E K => ?run⟩
  case run =>
    simp only [cc2__cosine_matmul_kernel_eq_skeleton]; unfold cc2__cosine_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.R2RunB.lean ====
/-
  The matrix-product body at a point whose contraction block is neither first nor last: the block's product is added to the accumulator the point before left; the output tile is left alone.
-/
import proofs.«134577_j46729244180934_2_alg».proof.Proof.R2Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole staging memrefs: the inputs at their contents come back as they were; what the
    stores leave in the output tile and in the accumulator are the piece lists found while running the body. -/
noncomputable def kernelRun2_B (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : ¬cond2_1 i)
    (x0 : Vec F S2048x1024 .bf16) (x1 : Vec F S1024x1024 .bf16) (x2 : Vec F S2048x1 .f32) (x3 : Vec F S1x1024 .f32) (xs0 : Vec F S2048x1024 .f32) :
    Σ' (L4 : List (View.Piece (Elt F) S2048x1024 .f32)), { LS0 : List (View.Piece (Elt F) S2048x1024 .f32) //
      ∀ (xi4 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi4 ∗ (∃ f, arg8.view.loc (c : Thread nD τ) ↦[arg8.view.set]{fullShare} arg8.view.writes (Elt F) f LS0)) -∗ K ⟨⟩))
          ⊢ wp frame (wpE (defs₀ (F := F)) Variants.none c none) E (cc2__cosine_matmul_kernel i arg3 harg3 arg4 harg4 arg5 harg5 arg6 harg6 arg7 harg7 arg8 harg8) K } := by
  refine ⟨[], ?_, fun xi4 E K => ?run⟩
  case run =>
    simp only [cc2__cosine_matmul_kernel_eq_skeleton]; unfold cc2__cosine_matmul_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS0

end Cert.KernelIdeal.Hand

end
-- ==== Proof.R2RunC.lean ====
/-
  The matrix-product body at a point whose contraction block is the last: the block's product is added to the accumulator, and the accumulator divided by the outer product of the two norm vectors is stored into the output tile.
-/
import proofs.«134577_j46729244180934_2_alg».proof.Proof.R2Shared

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The body in this case, on whole staging memrefs: the inputs at their contents come back as they were; what the
    stores leave in the output tile and in the accumulator are the piece lists found while running the body. -/
noncomputable def kernelRun2_C (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S2048x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond2_0 i) (hc1 : cond2_1 i)
    (x0 : Vec F S2048x1024 .bf16) (x1 : Vec F S1024x1024 .bf16) (x2 : Vec F S2048x1 .f32) (x3 : Vec F S1x1024 .f32) (xs0 : Vec F S2048x1024 .f32) :
    Σ' (L4 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS0)) -∗ K ⟨⟩))
          ⊢ wp frame (wpE (defs₀ (F := F)) Variants.none c none) E (cc2__cosine_matmul_kernel i arg3 harg3 arg4 harg4 arg5 harg5 arg6 harg6 arg7 harg7 arg8 harg8) K } := by
  refine ⟨?_, ?_, fun E K => ?run⟩
  case run =>
    simp only [cc2__cosine_matmul_kernel_eq_skeleton]; unfold cc2__cosine_matmul_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS0

end Cert.KernelIdeal.Hand

end
-- ==== Proof.R2Frame.lean ====
/-
  The matrix-product region point by point: what the output tile and the accumulator hold after each grid
  point (by recursion on the point: the accumulator after a point is the case's run applied to the accumulator
  the point before left), the region's invariant (before the first point every scoped buffer at anything; after
  a point the accumulator at exactly that point's contents), the pipeline's proof data and the body obligation.
-/
import proofs.«134577_j46729244180934_2_alg».proof.Proof.R2RunA
import proofs.«134577_j46729244180934_2_alg».proof.Proof.R2RunB
import proofs.«134577_j46729244180934_2_alg».proof.Proof.R2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The three cases at a grid point -/

/-- The first-block run at point `t`, on the point's staging memrefs and input blocks. -/
abbrev runA (c : Dev nD) (t : Fin cfg2.N) (h0 : t.val % 4 = 0) (h1 : ¬t.val % 4 = 3) :=
  kernelRun2_A (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) ((hcond2_0 t).mpr h0) (fun h => h1 ((hcond2_1 t).mp h)) (iblk2 V c 0 t) (iblk2 V c 1 t) (iblk2 V c 2 t) (iblk2 V c 3 t)
/-- The middle-block run at point `t`, from the accumulator contents `xs`. -/
abbrev runB (c : Dev nD) (t : Fin cfg2.N) (h0 : ¬t.val % 4 = 0) (h1 : ¬t.val % 4 = 3) (xs : Vec F S2048x1024 .f32) :=
  kernelRun2_B (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) (fun h => h1 ((hcond2_1 t).mp h)) (iblk2 V c 0 t) (iblk2 V c 1 t) (iblk2 V c 2 t) (iblk2 V c 3 t) xs
/-- The last-block run at point `t`, from the accumulator contents `xs`. -/
abbrev runC (c : Dev nD) (t : Fin cfg2.N) (h0 : ¬t.val % 4 = 0) (h1 : t.val % 4 = 3) (xs : Vec F S2048x1024 .f32) :=
  kernelRun2_C (F := F) c (grid2.coords t) (ms2_0 t) (hs2_0 t) (ms2_1 t) (hs2_1 t) (ms2_2 t) (hs2_2 t) (ms2_3 t) (hs2_3 t) (ms2_4 t) (hs2_4 t) scM2_0 (Memref.isWhole_whole _) (fun h => h0 ((hcond2_0 t).mp h)) ((hcond2_1 t).mpr h1) (iblk2 V c 0 t) (iblk2 V c 1 t) (iblk2 V c 2 t) (iblk2 V c 3 t) xs

/-- A piece list read back as the contents of the accumulator, respectively of an output staging buffer. -/
abbrev readS (L : List (View.Piece (Elt F) S2048x1024 .f32)) : Vec F S2048x1024 .f32 :=
  VS2_0.read (Elt F) (VS2_0.writes (Elt F) VS2_0.junk L)
abbrev readO (L : List (View.Piece (Elt F) S2048x1024 .f32)) : Vec F S2048x1024 .f32 :=
  VO2_4.read (Elt F) (VO2_4.writes (Elt F) VO2_4.junk L)

/-- Each case's accumulator pieces cover the accumulator; the last case's output pieces cover the output tile. -/
theorem scoverA (c : Dev nD) (t : Fin cfg2.N) (h0 : t.val % 4 = 0) (h1 : ¬t.val % 4 = 3) (y : S2048x1024.Idx) :
    ∃ pc ∈ (runA V c t h0 h1).2.1, y ∈ pc.1.set :=
  View.cover_of_tiledL (runA V c t h0 h1).2.1 S2048x1024.size (by sl_kernel_rfl) y
theorem scoverB (c : Dev nD) (t : Fin cfg2.N) (h0 : ¬t.val % 4 = 0) (h1 : ¬t.val % 4 = 3) (xs : Vec F S2048x1024 .f32) (y : S2048x1024.Idx) :
    ∃ pc ∈ (runB V c t h0 h1 xs).2.1, y ∈ pc.1.set :=
  View.cover_of_tiledL (runB V c t h0 h1 xs).2.1 S2048x1024.size (by sl_kernel_rfl) y
theorem scoverC (c : Dev nD) (t : Fin cfg2.N) (h0 : ¬t.val % 4 = 0) (h1 : t.val % 4 = 3) (xs : Vec F S2048x1024 .f32) (y : S2048x1024.Idx) :
    ∃ pc ∈ (runC V c t h0 h1 xs).2.1, y ∈ pc.1.set :=
  View.cover_of_tiledL (runC V c t h0 h1 xs).2.1 S2048x1024.size (by sl_kernel_rfl) y
theorem ocoverC (c : Dev nD) (t : Fin cfg2.N) (h0 : ¬t.val % 4 = 0) (h1 : t.val % 4 = 3) (xs : Vec F S2048x1024 .f32) (y : S2048x1024.Idx) :
    ∃ pc ∈ (runC V c t h0 h1 xs).1, y ∈ pc.1.set :=
  View.cover_of_tiledL (runC V c t h0 h1 xs).1 S2048x1024.size (by sl_kernel_rfl) y

/-! ## What the output tile and the accumulator hold after each point -/

/-- After the body at position `n`: (the output tile's staging buffer, the accumulator). Where the case stores
    nothing into the output tile the first component is a placeholder nothing consults (the tile is idle there). -/
def outsAt2 (c : Dev nD) : (n : ℕ) → n < cfg2.N → Vec F S2048x1024 .f32 × Vec F S2048x1024 .f32
  | 0, hn => (readO (runA V c ⟨0, hn⟩ (Nat.zero_mod _) (show ¬(0 % 4 = 3) by decide)).1, readS (runA V c ⟨0, hn⟩ (Nat.zero_mod _) (show ¬(0 % 4 = 3) by decide)).2.1)
  | n + 1, hn =>
    if h0 : (n + 1) % 4 = 0 then
      (readO (runA V c ⟨n + 1, hn⟩ h0 (show ¬((n + 1) % 4 = 3) by omega)).1, readS (runA V c ⟨n + 1, hn⟩ h0 (show ¬((n + 1) % 4 = 3) by omega)).2.1)
    else if h1 : (n + 1) % 4 = 3 then
      (readO (runC V c ⟨n + 1, hn⟩ h0 h1 (outsAt2 c n (Nat.lt_of_succ_lt hn)).2).1, readS (runC V c ⟨n + 1, hn⟩ h0 h1 (outsAt2 c n (Nat.lt_of_succ_lt hn)).2).2.1)
    else
      (readO (runB V c ⟨n + 1, hn⟩ h0 h1 (outsAt2 c n (Nat.lt_of_succ_lt hn)).2).1, readS (runB V c ⟨n + 1, hn⟩ h0 h1 (outsAt2 c n (Nat.lt_of_succ_lt hn)).2).2.1)

theorem outsAt2_A (c : Dev nD) (t : Fin cfg2.N) (h0 : t.val % 4 = 0) (h1 : ¬t.val % 4 = 3) :
    outsAt2 V c t.val t.isLt = (readO (runA V c t h0 h1).1, readS (runA V c t h0 h1).2.1) := by
  obtain ⟨n, hn⟩ := t
  cases n with
  | zero => exact rfl
  | succ n => exact (dif_pos h0).trans rfl

theorem outsAt2_B (c : Dev nD) (t : Fin cfg2.N) (h0 : ¬t.val % 4 = 0) (h1 : ¬t.val % 4 = 3) :
    outsAt2 V c t.val t.isLt = (readO (runB V c t h0 h1 (outsAt2 V c (t.val - 1) (Nat.lt_of_le_of_lt (Nat.sub_le _ _) t.isLt)).2).1,
      readS (runB V c t h0 h1 (outsAt2 V c (t.val - 1) (Nat.lt_of_le_of_lt (Nat.sub_le _ _) t.isLt)).2).2.1) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 4 = 0) (h1 : t.val % 4 = 3) :
    outsAt2 V c t.val t.isLt = (readO (runC V c t h0 h1 (outsAt2 V c (t.val - 1) (Nat.lt_of_le_of_lt (Nat.sub_le _ _) t.isLt)).2).1,
      readS (runC V c t h0 h1 (outsAt2 V c (t.val - 1) (Nat.lt_of_le_of_lt (Nat.sub_le _ _) t.isLt)).2).2.1) := by
  obtain ⟨n, hn⟩ := t
  cases n with
  | zero => exact absurd (Nat.zero_mod _) h0
  | succ n => exact (dif_neg h0).trans ((dif_pos h1).trans rfl)

/-! ## The region's invariant -/

/-- Before position `n`: at the first point every scoped buffer that is no staging buffer at anything; afterwards the
    accumulator at exactly what the point before left, the other scoped buffers at anything; the generator register at some state. -/
def PhiS (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ others2 (F := F) c) ∗ (∃ r, prngReg c r))

theorem PhiS_zero (c : Dev nD) (n : ℕ) (h : n ≤ cfg2.N) (hz : n = 0) : PhiS V c n h = Pipeline.ΦA spec2 c := by
  subst hz; rfl

theorem PhiS_succ (c : Dev nD) (n : ℕ) (hn : n < cfg2.N) :
    PhiS V c (n + 1) hn = iprop(iprop(owns (c : Thread nD τ) scM2_0 fullShare ((outsAt2 V c n hn).2) ∗ others2 (F := F) c) ∗ (∃ r, prngReg c r)) := rfl

theorem PhiS_pos (c : Dev nD) (n : ℕ) (h : n ≤ cfg2.N) (hz : n ≠ 0) :
    PhiS V c n h = iprop(iprop(owns (c : Thread nD τ) scM2_0 fullShare ((outsAt2 V c (n - 1) (by omega)).2) ∗ others2 (F := F) c) ∗ (∃ r, prngReg c r)) := by
  cases n with
  | zero => exact absurd rfl hz
  | succ n => rfl

/-! ## The pipeline's proof data -/

/-- The arrays as the region finds them; after the body each input's buffer at its block and the output tile's at
    `outsAt2`; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
  Φ t := PhiS V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS_castSucc (c : Dev nD) (t : Fin cfg2.N) :
    (dat2 V c).Φ t.castSucc = PhiS V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

theorem leaves2_0 (c : Dev nD) (t : Fin cfg2.N) : (dat2 V c).leavesExact 0 t = owns (c : Thread nD τ) (ms2_0 t) fullShare (iblk2 V c 0 t) := by
  unfold Dat.leavesExact; rw [liveAt2_0 t, after2_0]
theorem leaves2_1 (c : Dev nD) (t : Fin cfg2.N) : (dat2 V c).leavesExact 1 t = owns (c : Thread nD τ) (ms2_1 t) fullShare (iblk2 V c 1 t) := by
  unfold Dat.leavesExact; rw [liveAt2_1 t, after2_1]
theorem leaves2_2 (c : Dev nD) (t : Fin cfg2.N) : (dat2 V c).leavesExact 2 t = owns (c : Thread nD τ) (ms2_2 t) fullShare (iblk2 V c 2 t) := by
  unfold Dat.leavesExact; rw [liveAt2_2 t, after2_2]
theorem leaves2_3 (c : Dev nD) (t : Fin cfg2.N) : (dat2 V c).leavesExact 3 t = owns (c : Thread nD τ) (ms2_3 t) fullShare (iblk2 V c 3 t) := by
  unfold Dat.leavesExact; rw [liveAt2_3 t, after2_3]

set_option maxHeartbeats 4800000 in
/-- The body at any point: the inputs' memrefs hold their blocks; the point's contraction block says which case it is in;
    the invariant hands the body the accumulator at what the point before left (at anything at the first point) and
    takes it back at this point's contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS V c (t.val + 1) t.isLt from rfl, PhiS_succ]
  rw [leaves2_0, leaves2_1, leaves2_2, leaves2_3]
  have hN : t.val < 128 := lt_of_lt_of_eq t.isLt (show cfg2.N = 128 from N_2)
  by_cases h0 : t.val % 4 = 0
  · have h1 : ¬t.val % 4 = 3 := by omega
    rw [Dat.leavesExact_idle (dat2 V c) 4 t (idleAt2_4 t (fun h => h1 ((hcond2_1 t).mp h))) (noFlush2_4 t (fun h => h1 ((hcond2_1 t).mp h)))]
    rw [outsAt2_A V c t h0 h1]
    (try dsimp only)
    by_cases hz : t.val = 0
    · rw [PhiS_castSucc V c t, PhiS_zero V c _ _ hz, PhiA2_eq]
      iintro ⟨⟨⟨HS0, Hoth⟩, Hg⟩, Ho, ⟨%d0, H0⟩, ⟨%d1, H1⟩, ⟨%d2, H2⟩, ⟨%d3, H3⟩, ⟨%d4, H4⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverA V c t h0 h1)
          iexact Hoth
        iexact Hg
      isplitl [Ho]; · iexact Ho
      isplitl [H0]; · iexact H0
      isplitl [H1]; · iexact H1
      isplitl [H2]; · iexact H2
      isplitl [H3]; · iexact H3
      iexists _; iexact H4
    · rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((runA V c t h0 h1).2.2 _ Set.univ _)
      isplitl [H0]; · iexact H0
      isplitl [H1]; · iexact H1
      isplitl [H2]; · iexact H2
      isplitl [H3]; · iexact H3
      isplitl [H4]; · iexact H4
      isplitl [HS0]; · iexists _; iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverA V c t h0 h1)
          iexact Hoth
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := by omega
    by_cases h1 : t.val % 4 = 3
    · rw [show (dat2 V c).leavesExact 4 t = owns (c : Thread nD τ) (ms2_4 t) fullShare ((dat2 V c).after 4 t) from by
        unfold Dat.leavesExact; rw [liveAt2_4 t ((hcond2_1 t).mpr h1)], after2_4]
      rw [outsAt2_C V c t h0 h1]
      (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((runC V c t h0 h1 _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverC V c t h0 h1 _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (ocoverC V c t h0 h1 _)
    · rw [Dat.leavesExact_idle (dat2 V c) 4 t (idleAt2_4 t (fun h => h1 ((hcond2_1 t).mp h))) (noFlush2_4 t (fun h => h1 ((hcond2_1 t).mp h)))]
      rw [outsAt2_B V c t h0 h1]
      (try dsimp only)
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((runB V c t h0 h1 _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverB V c t h0 h1 _)
          iexact Hoth
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS V c 0 (Nat.zero_le _) from rfl, PhiS_zero V c 0 _ rfl]
  try exact Idealize.SL.BI.Entails.refl _

/-- After any point but the first the invariant gives the entry invariant back: the accumulator's contents are forgotten. -/
theorem Phi_out2 (c : Dev nD) (t : Fin (cfg2.N + 1)) (ht : t.val ≠ 0) : (dat2 V c).Φ t ⊢ Pipeline.ΦA spec2 c := by
  rw [show (dat2 V c).Φ t = PhiS V c t.val (Nat.le_of_lt_succ t.isLt) from rfl, PhiS_pos V c _ _ ht, PhiA2_eq]
  iintro ⟨⟨HS0, Hoth⟩, Hg⟩
  isplitl [HS0 Hoth]
  · isplitl [HS0]
    · iexists _; iexact HS0
    iexact Hoth
  iexact Hg

theorem hout2 (c : Dev nD) : (dat2 V c).Φ (Fin.last cfg2.N) ⊢ Pipeline.ΦA spec2 c :=
  Phi_out2 V c _ (by rw [Fin.val_last]; have : cfg2.N = 128 := N_2; omega)

end

end Cert.KernelIdeal.Hand

end
-- ==== Proof.Main.lean ====
/-
  The whole program's run. @main is: the cast-and-norm launch on `x`, the same launch on `weights`, the host's
  transpose of the weights' norm column into a row, and the matrix-product launch. The contents of every unscoped
  buffer at each of the four boundaries are a fold from the launch memory: a launch leaves its windows' arrays at
  what its write-backs leave (the inputs as found) and every other buffer as found; the host line writes its own
  result buffer only. Every argument array therefore ends as launched, and the result buffer ends at what the
  matrix-product launch's write-backs leave in it.
-/
import proofs.«134577_j46729244180934_2_alg».proof.Proof.FrameA
import proofs.«134577_j46729244180934_2_alg».proof.Proof.R2Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents at each boundary -/

/-- Core `c`'s buffers at launch (the first launch's entry). -/
abbrev WA : Dev nD → Valuation τ sig (Elt F) := fun c b => m (c, b)
abbrev VA : (c : Dev nD) → (b : Ref sig .tc) → Buf (Elt F) ((c : Thread nD τ).loc b) := fun c b => WA m c b

/-- After the first launch (the second launch's entry). -/
def WB (c : Dev nD) : Valuation τ sig (Elt F) :=
  Pipeline.withArrays spec0 c (WA m c) fun w => (dat0 (VA m) c).arrAt w cfg0.N
theorem WB_arr (c : Dev nD) (w : Fin cfg0.W) :
    WB m c (Proc.devRef .tc (Pipeline.arrRef spec0 w)) = (dat0 (VA m) c).arrAt w cfg0.N := by
  unfold WB; exact Pipeline.withArrays_arr spec0 launch0.win.arr_inj c _ _ w
theorem WB_of_ne (c : Dev nD) (b : Ref sig .tc) (hb : ∀ w, Pipeline.arrRef spec0 w ≠ b) :
    WB m c (Proc.devRef .tc b) = WA m c (Proc.devRef .tc b) := by
  unfold WB; exact Pipeline.withArrays_of_ne spec0 c _ _ b hb
/-- The same read at the TensorCore's references. -/
abbrev VB : (c : Dev nD) → (b : Ref sig .tc) → Buf (Elt F) ((c : Thread nD τ).loc b) := fun c b => WB m c b
theorem hF0 (c : Dev nD) (w : Fin cfg0.W) : (dat0 (VA m) c).arrAt w cfg0.N = VB m c (Pipeline.arrRef spec0 w) :=
  (WB_arr m c w).symm
theorem hrest0 (c : Dev nD) : ∀ b, b ∉ Finset.univ.image (Pipeline.arrRef spec0) → VB m c b = VA m c b :=
  fun b hb => WB_of_ne m c b fun w e => hb (Finset.mem_image.mpr ⟨w, Finset.mem_univ _, e⟩)

/-- After the second launch. -/
def WB2 (c : Dev nD) : Valuation τ sig (Elt F) :=
  Pipeline.withArrays spec1 c (WB m c) fun w => (dat1 (VB m) c).arrAt w cfg1.N
theorem WB2_arr (c : Dev nD) (w : Fin cfg1.W) :
    WB2 m c (Proc.devRef .tc (Pipeline.arrRef spec1 w)) = (dat1 (VB m) c).arrAt w cfg1.N := by
  unfold WB2; exact Pipeline.withArrays_arr spec1 launch1.win.arr_inj c _ _ w
theorem WB2_of_ne (c : Dev nD) (b : Ref sig .tc) (hb : ∀ w, Pipeline.arrRef spec1 w ≠ b) :
    WB2 m c (Proc.devRef .tc b) = WB m c (Proc.devRef .tc b) := by
  unfold WB2; exact Pipeline.withArrays_of_ne spec1 c _ _ b hb
/-- The same read at the TensorCore's references. -/
abbrev VB2 : (c : Dev nD) → (b : Ref sig .tc) → Buf (Elt F) ((c : Thread nD τ).loc b) := fun c b => WB2 m c b
theorem hF1 (c : Dev nD) (w : Fin cfg1.W) : (dat1 (VB m) c).arrAt w cfg1.N = VB2 m c (Pipeline.arrRef spec1 w) :=
  (WB2_arr m c w).symm
theorem hrest1 (c : Dev nD) : ∀ b, b ∉ Finset.univ.image (Pipeline.arrRef spec1) → VB2 m c b = VB m c b :=
  fun b hb => WB2_of_ne m c b fun w e => hb (Finset.mem_image.mpr ⟨w, Finset.mem_univ _, e⟩)

/-- After the host's transpose (the matrix-product launch's entry). -/
abbrev WC : Dev nD → Valuation τ sig (Elt F) := fun c => StableHlo.after hostOps2 (WB2 m c)
abbrev VC : (c : Dev nD) → (b : Ref sig .tc) → Buf (Elt F) ((c : Thread nD τ).loc b) := fun c b => WC m c b

/-- After the matrix-product launch: the end. -/
def WD (c : Dev nD) : Valuation τ sig (Elt F) :=
  Pipeline.withArrays spec2 c (WC m c) fun w => (dat2 (VC m) c).arrAt w cfg2.N
theorem WD_arr (c : Dev nD) (w : Fin cfg2.W) :
    WD m c (Proc.devRef .tc (Pipeline.arrRef spec2 w)) = (dat2 (VC m) c).arrAt w cfg2.N := by
  unfold WD; exact Pipeline.withArrays_arr spec2 launch2.win.arr_inj c _ _ w
theorem WD_of_ne (c : Dev nD) (b : Ref sig .tc) (hb : ∀ w, Pipeline.arrRef spec2 w ≠ b) :
    WD m c (Proc.devRef .tc b) = WC m c (Proc.devRef .tc b) := by
  unfold WD; exact Pipeline.withArrays_of_ne spec2 c _ _ b hb
/-- The same read at the TensorCore's references. -/
abbrev VD : (c : Dev nD) → (b : Ref sig .tc) → Buf (Elt F) ((c : Thread nD τ).loc b) := fun c b => WD m c b
theorem hF2 (c : Dev nD) (w : Fin cfg2.W) : (dat2 (VC m) c).arrAt w cfg2.N = VD m c (Pipeline.arrRef spec2 w) :=
  (WD_arr m c w).symm
theorem hrest2 (c : Dev nD) : ∀ b, b ∉ Finset.univ.image (Pipeline.arrRef spec2) → VD m c b = VC m c b :=
  fun b hb => WD_of_ne m c b fun w e => hb (Finset.mem_image.mpr ⟨w, Finset.mem_univ _, e⟩)

/-! ## The arguments end as launched -/

theorem WD_main_arg0 (c : Dev nD) : WD m c (Proc.devRef .tc main_arg0) = m ((c : Thread nD τ).loc main_arg0) :=
  calc WD m c (Proc.devRef .tc main_arg0)
    _ = WC m c (Proc.devRef .tc main_arg0) := WD_of_ne m c main_arg0 (by decide)
    _ = WB2 m c (Proc.devRef .tc main_arg0) := StableHlo.after_of_forall_not_mem (b := Proc.devRef .tc main_arg0) _ _ (List.forall_iff_forall_mem.mp (by
          simp only [hostOps2, List.Forall, StableHlo.unary_writes, Finset.mem_singleton]
          exact StableHlo.devRef_ne_of_ne (by decide)))
    _ = WB m c (Proc.devRef .tc main_arg0) := WB2_of_ne m c main_arg0 (by decide)
    _ = WA m c (Proc.devRef .tc main_arg0) := (WB_arr m c 0).trans (((dat0 (VA m) c).arrAt_in 0 rfl _).trans (A_eq0 (VA m) c 0))
    _ = m ((c : Thread nD τ).loc main_arg0) := rfl

theorem WD_main_arg1 (c : Dev nD) : WD m c (Proc.devRef .tc main_arg1) = m ((c : Thread nD τ).loc main_arg1) :=
  calc WD m c (Proc.devRef .tc main_arg1)
    _ = WC m c (Proc.devRef .tc main_arg1) := WD_of_ne m c main_arg1 (by decide)
    _ = WB2 m c (Proc.devRef .tc main_arg1) := StableHlo.after_of_forall_not_mem (b := Proc.devRef .tc main_arg1) _ _ (List.forall_iff_forall_mem.mp (by
          simp only [hostOps2, List.Forall, StableHlo.unary_writes, Finset.mem_singleton]
          exact StableHlo.devRef_ne_of_ne (by decide)))
    _ = WB m c (Proc.devRef .tc main_arg1) := (WB2_arr m c 0).trans (((dat1 (VB m) c).arrAt_in 0 rfl _).trans (A_eq1 (VB m) c 0))
    _ = WA m c (Proc.devRef .tc main_arg1) := WB_of_ne m c main_arg1 (by decide)
    _ = m ((c : Thread nD τ).loc main_arg1) := rfl

/-! ## The proof data family and the thread state -/

abbrev adm : (p : Fin 3) → (pcfgs (F := F) p).Adm := fun p => (cfgs p).toPCfg_adm
/-- Every launch's proof data, each at its entry contents. -/
def pdats : (p : Fin 3) → (c : Dev nD) → Dat τ (Elt F) Unit ℕ (UR sig nD τ) ℕ (Pipeline.pin (pcfgs (F := F)) adm p) c
  | ⟨0, _⟩ => fun c => dat0 (VA m) c
  | ⟨1, _⟩ => fun c => dat1 (VB m) c
  | ⟨2, _⟩ => fun c => dat2 (VC m) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps2_fresh' : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (WD m c) ∗ ∃ r, prngReg c r)

/-! ## The launches as segments -/

set_option backward.isDefEq.respectTransparency.types false in
/-- Region 0 over the thread state: entered from every unscoped buffer at `WA`, left at `WB`. Its arrays are split
    out of the unscoped buffers and put back at the contents the write-backs leave; the generator register goes into the
    region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VA m) c).loose
  hwaits := Pipeline.hwaits_of_owed_zero _ _ _ _ L lv 0 fun _ _ => rfl
  pre c := iprop(StableHlo.held (c : Thread nD τ) (Pipeline.ucRefs τ sig) (WA m c) ∗ R c)
  post c := iprop(StableHlo.held (c : Thread nD τ) (Pipeline.ucRefs τ sig) (WB m c) ∗ R c)
  X c := iprop(∃ r, prngReg c r)
  Y c := iprop(∃ r, prngReg c r)
  Z c := Pipeline.unscopedRest (Ix := Unit) (Name := ℕ) (U := UR sig nD τ) (Lvl := ℕ) spec0 c (VA m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VA m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VA m c) (VB m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `WB`, left at `WB2`. Its arrays are split
    out of the unscoped buffers and put back at the contents the write-backs leave; the generator register goes into the
    region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VB m) c).loose
  hwaits := Pipeline.hwaits_of_owed_zero _ _ _ _ L lv 1 fun _ _ => rfl
  pre c := iprop(StableHlo.held (c : Thread nD τ) (Pipeline.ucRefs τ sig) (WB m c) ∗ R c)
  post c := iprop(StableHlo.held (c : Thread nD τ) (Pipeline.ucRefs τ sig) (WB2 m c) ∗ R c)
  X c := iprop(∃ r, prngReg c r)
  Y c := iprop(∃ r, prngReg c r)
  Z c := Pipeline.unscopedRest (Ix := Unit) (Name := ℕ) (U := UR sig nD τ) (Lvl := ℕ) spec1 c (VB m c)
  hentry c := by
    rw [Pipeline.ownSems0_none]
    have hsplit := Pipeline.arrays_of_unscopedBufs (p := 1) (pcfgs (F := F)) adm (pdats m) launch1.win launch1.arr_whole c
      ((pdats m 1 c).share_full fun _ => rfl) (VB m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (VB m c) (VB2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `WC`, left at `WD`. Its arrays are split
    out of the unscoped buffers and put back at the contents the write-backs leave; the generator register goes into the
    region's invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VC m) c).loose
  hwaits := Pipeline.hwaits_of_owed_zero _ _ _ _ L lv 2 fun _ _ => rfl
  pre c := iprop(StableHlo.held (c : Thread nD τ) (Pipeline.ucRefs τ sig) (WC m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (VC m c)
  hentry c := by
    rw [Pipeline.ownSems0_none]
    have hsplit := Pipeline.arrays_of_unscopedBufs (p := 2) (pcfgs (F := F)) adm (pdats m) launch2.win launch2.arr_whole c
      ((pdats m 2 c).share_full fun _ => rfl) (VC m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop(Pipeline.scopedRest spec2 c ∗ ∃ r, prngReg c r) ⊢ (dat2 (VC m) c).Φ 0 := by
      have := hin2 (VC m) c; unfold Pipeline.ΦA at this; exact this
    rw [show (pdats m 2 c).Φ 0 = (dat2 (VC m) c).Φ 0 from rfl]
    iintro ⟨Hp, -, Hr⟩
    iapply h
    isplitl [Hr]; · iexact Hr
    iexact Hp
  hout c := by
    have h : (dat2 (VC m) c).Φ (Fin.last cfg2.N) ⊢ iprop(Pipeline.scopedRest spec2 c ∗ ∃ r, prngReg c r) := by
      have := hout2 (VC m) c; unfold Pipeline.ΦA at this; exact this
    rw [Pipeline.ownSems0_none, show (pdats m 2 c).Φ (Fin.last _) = (dat2 (VC m) c).Φ (Fin.last cfg2.N) from rfl]
    exact h.trans (by
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (VC m c) (VD m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .region (reg0 m),
    .region (reg1 m),
    .host (hseg hostOps2 hostOps2_sub hostOps2_fresh' (WB2 m)),
    .region (reg2 m) ]
theorem main_run (c : Dev nD) : main (F := F) c = Pipeline.Seg.run (segs m) := (main_chain c).trans (by chain_rfl)

set_option backward.isDefEq.respectTransparency.types false in
/-- THE RUN. From any memory with zero counters every weakly fair execution of @main on the TensorCores terminates,
    nothing faulting, and every final memory holds each unscoped buffer of every core at the last boundary's contents. -/
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = WD m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (WA m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (WA m c)
        from Pipeline.unscopedBufs_held c (WA m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = WD m c b)
    (hfin := fun c s' => by
      iintro ⟨⟨Hh, -⟩, HSI⟩
      unfold StableHlo.held
      imodintro
      iapply (pointsTo_read_all (Pipeline.ucRefs τ sig) (fun b => (((c : Thread nD τ)).1, b)) (WD m c) s')
      isplitl [Hh] <;> iassumption)
    (hQ := fun s h c => h c)

/-- The frame: every argument array ends as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (WD_main_arg0 m c),
     (h c _ (mem_uc main_arg1 (by decide))).trans (WD_main_arg1 m c)⟩) (run_all m ρ)

/-- The run with the result named: the result buffer ends at what the matrix-product launch's write-backs leave in its
    output array, and the arguments end as launched. -/
theorem run_value (ρ : Dev nD → PrngReg) : θ_run defs (onTc (τ := τ) (main (F := F))) ⟨m, fun _ => 0, ρ⟩ (fun r => ∀ c : Dev nD,
      r.2.mem ((c.tc : Thread nD τ).loc main_v3) = (dat2 (VC m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v3 (by decide))).trans (WD_arr m c 4),
     (h c _ (mem_uc main_arg0 (by decide))).trans (WD_main_arg0 m c),
     (h c _ (mem_uc main_arg1 (by decide))).trans (WD_main_arg1 m c)⟩) (run_all m ρ)

end Cert.KernelIdeal.Hand

end
-- ==== Proof.R2Pieces.lean ====
/-
  The matrix-product body's stores, read back as values: the accumulator after a first-block point is the
  block's product added to the zero fill; after a later point it is the block's product added to what the
  point before left; and at a last-block point the output tile receives that accumulator divided by the outer
  product of the two norm blocks.
-/
import proofs.«134577_j46729244180934_2_alg».proof.Proof.R2Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem hz2 : (![0, 0] : Fin 2 → Nat) = fun _ => 0 := by funext a; match a with | ⟨0, _⟩ => rfl | ⟨1, _⟩ => rfl

theorem readS_A (c : Dev nD) (t : Fin cfg2.N) (h0 : t.val % 4 = 0) (h1 : ¬t.val % 4 = 3) :
    readS (runA V c t h0 h1).2.1 = k2_pay2 (k2_pay1 (F := F)) (iblk2 V c 0 t) (iblk2 V c 1 t) := by
  unfold readS; rw [View.read_writes_eq_canon _ _ _ (scoverA V c t h0 h1)]; unfold runA
  unfold kernelRun2_A; dsimp only; sl_unfold_words
  rw [View.canon_cons_unit_zero hz2]
  simp only [View.readCov_unit_zero (S := S2048x1024) _ hz2, View.readAt_eq_ld, Memref.IsWhole.read_unread, View.ld_unit_zero (S := S2048x1024) hz2, View.ld_unit_zero (S := S1024x1024) hz2]

theorem readS_B (c : Dev nD) (t : Fin cfg2.N) (h0 : ¬t.val % 4 = 0) (h1 : ¬t.val % 4 = 3) (xs : Vec F S2048x1024 .f32) :
    readS (runB V c t h0 h1 xs).2.1 = k2_pay2 xs (iblk2 V c 0 t) (iblk2 V c 1 t) := by
  unfold readS; rw [View.read_writes_eq_canon _ _ _ (scoverB V c t h0 h1 xs)]; unfold runB
  unfold kernelRun2_B; dsimp only; sl_unfold_words
  rw [View.canon_unit_zero hz2]
  simp only [View.readAt_eq_ld, Memref.IsWhole.read_unread, View.ld_unit_zero (S := S2048x1024) hz2, View.ld_unit_zero (S := S1024x1024) hz2]
  exact congrArg (fun z => k2_pay2 z (iblk2 V c 0 t) (iblk2 V c 1 t)) (Memref.IsWhole.read_unread _ xs)

theorem readS_C (c : Dev nD) (t : Fin cfg2.N) (h0 : ¬t.val % 4 = 0) (h1 : t.val % 4 = 3) (xs : Vec F S2048x1024 .f32) :
    readS (runC V c t h0 h1 xs).2.1 = k2_pay2 xs (iblk2 V c 0 t) (iblk2 V c 1 t) := by
  unfold readS; rw [View.read_writes_eq_canon _ _ _ (scoverC V c t h0 h1 xs)]; unfold runC
  unfold kernelRun2_C; dsimp only; sl_unfold_words
  rw [View.canon_unit_zero hz2]
  simp only [View.readAt_eq_ld, Memref.IsWhole.read_unread, View.ld_unit_zero (S := S2048x1024) hz2, View.ld_unit_zero (S := S1024x1024) hz2]
  exact congrArg (fun z => k2_pay2 z (iblk2 V c 0 t) (iblk2 V c 1 t)) (Memref.IsWhole.read_unread _ xs)

theorem readO_C (c : Dev nD) (t : Fin cfg2.N) (h0 : ¬t.val % 4 = 0) (h1 : t.val % 4 = 3) (xs : Vec F S2048x1024 .f32) :
    readO (runC V c t h0 h1 xs).1 = k2_pay3 (iblk2 V c 2 t) (iblk2 V c 3 t) (k2_pay2 xs (iblk2 V c 0 t) (iblk2 V c 1 t)) := by
  unfold readO; rw [View.read_writes_eq_canon _ _ _ (ocoverC V c t h0 h1 xs)]; unfold runC
  unfold kernelRun2_C; dsimp only; sl_unfold_words
  rw [View.canon_unit_zero hz2]
  simp only [View.readCov_unit_zero (S := S2048x1024) _ hz2, View.readAt_eq_ld, Memref.IsWhole.read_unread, View.ld_unit_zero (S := S2048x1024) hz2, View.ld_unit_zero (S := S1024x1024) hz2, View.ld_unit_zero (S := S2048x1) hz2, View.ld_unit_zero (S := S1x1024) hz2]
  exact congrArg (fun z => k2_pay3 (iblk2 V c 2 t) (iblk2 V c 3 t) (k2_pay2 z (iblk2 V c 0 t) (iblk2 V c 1 t))) (Memref.IsWhole.read_unread _ xs)

end

end Cert.KernelIdeal.Hand

end
-- ==== Proof.LibColumn.lean ====
/-
  A column read at coordinates. An array of shape [a, 1] is a column: one value per row. Two layout operations make or
  spread a column, and each is read here at an index written by its coordinates:
    • a vector [a] reshaped into the column [a, 1] keeps row `p`'s value at (p, 0);
    • a column [a, 1] broadcast along a new second axis to [a, b] repeats row `p`'s value at every (p, c).
  Both are the general read-at-an-index lemmas of a shape cast and of a broadcast with the coordinates' arithmetic done:
  the row-major position of (p, 0) in [a, 1] is p·1 + 0, and a broadcast reads coordinate 0 on the operand's unit axis.
-/
import Idealize.ShloMosaic.Lib.ValueLayout

namespace Idealize.ShloMosaic.ValueIdx

open Idealize.ShloMosaic

variable {α : Type}

/-- An `[a]` array reshaped to the column `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Val2Pay.lean ====
/-
  The three values the matmul kernel stores, each read at an index `(p, q)` of its [2048, 1024] block, on the
  extended reals:
    • the accumulator's first value is `0`;
    • one accumulation step adds to the accumulator's entry the product of a [2048, 1024] block with the transpose of a
      [1024, 1024] block, `∑ l, a[p,l] · b[q,l]` (the contraction is over axis 1 of both operands, into a zero start,
      and `0 + s = s`);
    • the stored result divides the accumulated entry by `n[p,0] · m[0,q]`, the column of one operand's row norms
      broadcast along the rows times the row of the other's broadcast down the columns.
  A shape cast of a shape to itself is the identity; the two broadcasts only move the index.
-/
import proofs.«134577_j46729244180934_2_alg».proof.Proof.Gen.KernelIdeal.Skeleton
import proofs.«134577_j46729244180934_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-! ## The accumulator's first value -/

/-- The accumulator block starts as the zero splat. -/
theorem pay1_apply (j : S2048x1024.Idx) : k2_pay1 (F := Ideal) j = 0 := by
  unfold k2_pay1
  rw [shapeCast_self]
  exact Ideal.ofBits_zero_f32

/-! ## The product of a block of `x` with the transpose of a block of `w`

  The contraction runs over axis 1 of both operands: entry `(p, q)` of the product pairs row `p` of the left operand
  with row `q` of the right one. The contraction's index set has one axis of extent 1024; the sum is re-indexed
  through its one coordinate. -/

theorem lhs_row (j : S2048x1024.Idx) (k : dot_S2048x1024_S1024x1024_S2048x1024_1_1_0_0_n_n.contr.Idx) : (dot_S2048x1024_S1024x1024_S2048x1024_1_1_0_0_n_n.lhsIdx j k 0).val = (j 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl

theorem lhs_pos (j : S2048x1024.Idx) (k : dot_S2048x1024_S1024x1024_S2048x1024_1_1_0_0_n_n.contr.Idx) : (dot_S2048x1024_S1024x1024_S2048x1024_1_1_0_0_n_n.lhsIdx j k 1).val = (k ⟨0, by decide⟩).val :=
  dot_S2048x1024_S1024x1024_S2048x1024_1_1_0_0_n_n.lhsIdx_val_of_single rfl j k

theorem rhs_row (j : S2048x1024.Idx) (k : dot_S2048x1024_S1024x1024_S2048x1024_1_1_0_0_n_n.contr.Idx) : (dot_S2048x1024_S1024x1024_S2048x1024_1_1_0_0_n_n.rhsIdx j k 0).val = (j 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl

theorem rhs_pos (j : S2048x1024.Idx) (k : dot_S2048x1024_S1024x1024_S2048x1024_1_1_0_0_n_n.contr.Idx) : (dot_S2048x1024_S1024x1024_S2048x1024_1_1_0_0_n_n.rhsIdx j k 1).val = (k ⟨0, by decide⟩).val :=
  dot_S2048x1024_S1024x1024_S2048x1024_1_1_0_0_n_n.rhsIdx_val_of_single rfl j k

/-- Into the zero accumulator, entry `(p, q)` of the product is `∑ l, a[p,l] · b[q,l]`. -/
theorem matmul_zero_apply (a : FVec Ideal S2048x1024 .bf16) (b : FVec Ideal S1024x1024 .bf16) (p : Fin 2048) (q : Fin 1024) :
    matmul dot_S2048x1024_S1024x1024_S2048x1024_1_1_0_0_n_n none a b (constant S2048x1024 .f32 0x00000000#32) (ix2 p q) = ∑ l : Fin 1024, a (ix2 p l) * b (ix2 q l) := by
  refine (Ideal.matmul_constant_zero_apply dot_S2048x1024_S1024x1024_S2048x1024_1_1_0_0_n_n none a b (ix2 p q)).trans ?_
  rw [← Equiv.sum_comp (contrEquiv1 dot_S2048x1024_S1024x1024_S2048x1024_1_1_0_0_n_n 1024 rfl rfl).symm]
  refine Finset.sum_congr rfl fun l _ => ?_
  have hl := contrEquiv1_symm_val dot_S2048x1024_S1024x1024_S2048x1024_1_1_0_0_n_n 1024 rfl rfl l
  have el : dot_S2048x1024_S1024x1024_S2048x1024_1_1_0_0_n_n.lhsIdx (ix2 p q) ((contrEquiv1 dot_S2048x1024_S1024x1024_S2048x1024_1_1_0_0_n_n 1024 rfl rfl).symm l) = ix2 p l := funext fun ax => Fin.ext (by
    match ax with
    | ⟨0, _⟩ => exact lhs_row _ _
    | ⟨1, _⟩ => exact (lhs_pos _ _).trans hl)
  have er : dot_S2048x1024_S1024x1024_S2048x1024_1_1_0_0_n_n.rhsIdx (ix2 p q) ((contrEquiv1 dot_S2048x1024_S1024x1024_S2048x1024_1_1_0_0_n_n 1024 rfl rfl).symm l) = ix2 q l := funext fun ax => Fin.ext (by
    match ax with
    | ⟨0, _⟩ => exact rhs_row _ _
    | ⟨1, _⟩ => exact (rhs_pos _ _).trans hl)
  rw [el, er]

/-- One step of the accumulation: the accumulator's entry plus the block product's. -/
theorem pay2_apply (v3 : Vec Ideal S2048x1024 .f32) (v4 : Vec Ideal S2048x1024 .bf16) (v6 : Vec Ideal S1024x1024 .bf16)
    (p : Fin 2048) (q : Fin 1024) :
    k2_pay2 v3 v4 v6 (ix2 p q) = v3 (ix2 p q) + ∑ l : Fin 1024, v4 (ix2 p l) * v6 (ix2 q l) := by
  unfold k2_pay2
  simp only [shapeCast_self]
  rw [addf_apply, matmul_zero_apply]

/-! ## The quotient by the two norms -/

/-- The stored result: the accumulated product over the column of norms of `x`'s rows times the row of norms of `w`'s rows. -/
theorem pay3_apply (v16 : Vec Ideal S2048x1 .f32) (v18 : Vec Ideal S1x1024 .f32) (v23 : Vec Ideal S2048x1024 .f32)
    (p : Fin 2048) (q : Fin 1024) :
    k2_pay3 v16 v18 v23 (ix2 p q) = Ideal.div (v23 (ix2 p q)) (v16 (ix2 p 0) * v18 (ix2 0 q)) := by
  unfold k2_pay3
  simp only [shapeCast_self]
  rw [divf_apply, mulf_apply, broadcastTo_a1_ab_apply, broadcastTo_1b_ab_apply]

end Cert.KernelIdeal.Hand

end
-- ==== Proof.Spec.lean ====
/-
  The function both programs compute, on the extended reals: for a batch row `b` and a weight row `o`,
  the inner product of the two rows divided by the product of their Euclidean norms, each norm clamped
  below at the constant `eps` (the `f32` nearest `1e-8`):

      cosine x w (b, o) = (∑ k, x[b,k] · w[o,k]) / (max (√(∑ k, x[b,k]²)) eps · max (√(∑ k, w[o,k]²)) eps).

  Also the one law of sums the blocked kernel needs: a sum over `4096` terms is the sum over four consecutive
  blocks of `1024` terms, accumulated block after block from zero. Only commutativity and associativity of `+`
  on the extended reals are used, so no finiteness is assumed.
-/
import Idealize.ShloMosaic.PureOps.Ideal
import Idealize.ShloMosaic.Lib.ValueIdx

noncomputable section

open scoped BigOperators

namespace Cert.Cosine

open Idealize.ShloMosaic Idealize.ShloMosaic.ValueIdx

/-- The shapes of the statement, spelt by their extents. -/
abbrev SA : Shape := ⟨2, ![8192, 4096]⟩
abbrev SO : Shape := ⟨2, ![8192, 8192]⟩

/-- The lower clamp of a norm: the `f32` word both programs print for `1e-8`. -/
def eps : EReal := Ideal.ofBits .f32 0x322BCC77#32

/-- The sum of the squares of row `r`. -/
def sumSq (a : SA.Idx → EReal) (r : Fin 8192) : EReal := ∑ k : Fin 4096, a (ix2 r k) * a (ix2 r k)

/-- Row `r`'s Euclidean norm, clamped below at `eps`. -/
def rowNorm (a : SA.Idx → EReal) (r : Fin 8192) : EReal := max (Ideal.sqrt (sumSq a r)) eps

/-- The inner product of row `b` of `x` and row `o` of `w`. -/
def dotRows (x w : SA.Idx → EReal) (b o : Fin 8192) : EReal := ∑ k : Fin 4096, x (ix2 b k) * w (ix2 o k)

/-- The clamped cosine similarity of row `b` of `x` and row `o` of `w`. -/
def cosAt (x w : SA.Idx → EReal) (b o : Fin 8192) : EReal :=
  Ideal.div (dotRows x w b o) (rowNorm x b * rowNorm w o)

/-- The whole result, index by index. -/
def cosine (x w : SA.Idx → EReal) : SO.Idx → EReal := fun i => cosAt x w (i 0) (i 1)

theorem cosine_ix2 (x w : SA.Idx → EReal) (b o : Fin 8192) : cosine x w (ix2 b o) = cosAt x w b o := rfl

/-! ## A sum of 4096 terms, four blocks of 1024 at a time -/

/-- Term `j` of block `q`: position `q · 1024 + j` of the long axis. -/
def blkIx (q : Fin 4) (j : Fin 1024) : Fin 4096 := ⟨q.val * 1024 + j.val, by omega⟩

/-- Block `q`'s partial sum of `f`. -/
def blockSum (f : Fin 4096 → EReal) (q : Fin 4) : EReal := ∑ j : Fin 1024, f (blkIx q j)

/-- The pairs (block, position in block) are the positions of the long axis. -/
def blkEquiv : Fin 4 × Fin 1024 ≃ Fin 4096 where
  toFun p := blkIx p.1 p.2
  invFun k := (⟨k.val / 1024, by omega⟩, ⟨k.val % 1024, by omega⟩)
  left_inv p := by
    obtain ⟨⟨q, hq⟩, ⟨j, hj⟩⟩ := p
    simp only [blkIx, Prod.mk.injEq, Fin.mk.injEq]
    constructor <;> omega
  right_inv k := by
    obtain ⟨k, hk⟩ := k
    simp only [blkIx, Fin.mk.injEq]
    omega

/-- The whole sum is the sum of the four block sums. -/
theorem sum_blocks (f : Fin 4096 → EReal) : ∑ k : Fin 4096, f k = ∑ q : Fin 4, blockSum f q := by
  unfold blockSum
  rw [← Finset.sum_product', Finset.univ_product_univ]
  exact (Equiv.sum_comp blkEquiv f).symm

/-- Accumulated from zero, block after block: `((0 + s₀) + s₁) + s₂) + s₃` is the whole sum. -/
theorem sum_blocks_acc (f : Fin 4096 → EReal) :
    (((0 + blockSum f 0) + blockSum f 1) + blockSum f 2) + blockSum f 3 = ∑ k : Fin 4096, f k := by
  rw [sum_blocks f, Fin.sum_univ_four, zero_add]

end Cert.Cosine

end
-- ==== Proof.AccSum.lean ====
/-
  Indices of the tiled matrix product and the accumulated partial sums. Row tile `a` holds rows
  `a · 2048 + p`, column tile `b` holds weight rows `b · 1024 + q`, contraction block `k` holds positions
  `k · 1024 + l` of the long axis. After contraction block `n` the accumulator holds
  `(… ((0 + s₀) + s₁) …) + sₙ`, `sₖ` the sum of the terms of block `k`; after block 3 that is the whole sum.
-/
import proofs.«134577_j46729244180934_2_alg».proof.Proof.Spec

noncomputable section

open scoped BigOperators

namespace Cert.Cosine

/-- Position `l` of contraction block `k` on the long axis. -/
def kIx (k : ℕ) (l : Fin 1024) : Fin 4096 := ⟨(k % 4) * 1024 + l.val, by omega⟩
/-- Row `p` of row tile `a`. -/
def rowIx (a : ℕ) (p : Fin 2048) : Fin 8192 := ⟨(a % 4) * 2048 + p.val, by omega⟩
/-- Weight row `q` of column tile `b`. -/
def colIx (b : ℕ) (q : Fin 1024) : Fin 8192 := ⟨(b % 8) * 1024 + q.val, by omega⟩

/-- The sum of `f` over contraction block `k`. -/
def blockSumN (f : Fin 4096 → EReal) (k : ℕ) : EReal := ∑ l : Fin 1024, f (kIx k l)

/-- The accumulator after contraction block `n`, started from zero. -/
def accTo (f : Fin 4096 → EReal) : ℕ → EReal
  | 0 => 0 + blockSumN f 0
  | n + 1 => accTo f n + blockSumN f (n + 1)

theorem accTo_zero (f : Fin 4096 → EReal) : accTo f 0 = 0 + blockSumN f 0 := rfl
theorem accTo_succ (f : Fin 4096 → EReal) (n : ℕ) : accTo f (n + 1) = accTo f n + blockSumN f (n + 1) := rfl

theorem blockSumN_eq (f : Fin 4096 → EReal) (q : Fin 4) : blockSumN f q.val = blockSum f q := by
  unfold blockSumN blockSum
  refine Finset.sum_congr rfl fun l _ => congrArg f (Fin.ext ?_)
  show (q.val % 4) * 1024 + l.val = q.val * 1024 + l.val
  have := q.isLt
  omega

/-- After the last contraction block the accumulator holds the whole sum. -/
theorem accTo_three (f : Fin 4096 → EReal) : accTo f 3 = ∑ k : Fin 4096, f k := by
  have e : accTo f 3 = (((0 + blockSumN f 0) + blockSumN f 1) + blockSumN f 2) + blockSumN f 3 := rfl
  rw [e, ← sum_blocks_acc f]
  exact congrArg₂ (· + ·) (congrArg₂ (· + ·) (congrArg₂ (· + ·) (congrArg₂ (· + ·) rfl (blockSumN_eq f 0)) (blockSumN_eq f 1)) (blockSumN_eq f 2)) (blockSumN_eq f 3)

end Cert.Cosine

end
-- ==== Proof.Val2Blocks.lean ====
/-
  The tiled matrix product, block by block: which entries of its arrays a grid point reads and writes.

  The grid is (4, 8, 4) — row tile, column tile, contraction block — with the contraction block innermost, so point `t`
  has row tile `t / 32`, column tile `(t / 4) % 8` and contraction block `t % 4`. At `t` the body reads
    • rows `(t / 32) · 2048 + p` of the first operand at positions `(t % 4) · 1024 + l`,
    • rows `((t / 4) % 8) · 1024 + q` of the second operand at the same positions,
    • the first operand's row norms at rows `(t / 32) · 2048 + p`, the second's at rows `((t / 4) % 8) · 1024 + q`,
  and its output tile is the rectangle of those rows and columns of the result. The tile is written back only at the
  last contraction block (`t % 4 = 3`); those tiles cover the result: entry `(r, s)` is in the tile of the point
  `((r / 2048) · 8 + s / 1024) · 4 + 3`.
-/
import proofs.«134577_j46729244180934_2_alg».proof.Proof.R2Frame
import proofs.«134577_j46729244180934_2_alg».proof.Proof.AccSum
import Idealize.ShloMosaic.Lib.ValueIdx
import Idealize.ShloMosaic.Lib.Pipeline.Value

noncomputable section

namespace Cert.KernelIdeal.Hand

open Cert.KernelIdeal Cert.KernelIdeal.Gen Cert.Cosine Idealize.ShloMosaic Idealize.ShloMosaic.ValueIdx
open Idealize.ShloMosaic.TcCoe
open Idealize.ShloMosaic.Pipeline (Dat)

variable (V : (c : Dev nD) → (b : Ref sig .tc) → Buf (Elt Ideal) ((c : Thread nD τ).loc b))

/-! ## The windows' block indices over the grid

  The grid is (4, 8, 4) with the last axis innermost, so point `t` has row tile `t / 32`, column tile `(t / 4) % 8`
  and contraction block `t % 4`. Decided over the 128 points. -/

theorem idx_facts2 : ∀ t : Fin cfg2.N, win2_0.index t (0 : Fin 2) = t.val / 32 ∧ win2_0.index t (1 : Fin 2) = t.val % 4
    ∧ win2_1.index t (0 : Fin 2) = (t.val / 4) % 8 ∧ win2_1.index t (1 : Fin 2) = t.val % 4
    ∧ win2_2.index t (0 : Fin 2) = t.val / 32 ∧ win2_2.index t (1 : Fin 2) = 0
    ∧ win2_3.index t (0 : Fin 2) = 0 ∧ win2_3.index t (1 : Fin 2) = (t.val / 4) % 8
    ∧ win2_4.index t (0 : Fin 2) = t.val / 32 ∧ win2_4.index t (1 : Fin 2) = (t.val / 4) % 8 :=
  (by decide +kernel : ∀ t : Fin grid2.N, _)

/-! ## The input blocks at a point, read off their arrays

  An element of a block sits in its array, on each axis, at the block's index times the block's extent plus its own
  coordinate. -/

/-- Entry `(p, l)` of the first operand's block at `t`: row `p` of row tile `t / 32`, position `l` of contraction block `t % 4`. -/
theorem blk0_apply (c : Dev nD) (t : Fin cfg2.N) (p : Fin 2048) (l : Fin 1024) :
    iblk2 V c 0 t (ix2 p l) = (V c main_v0_0 : S8192x4096.Idx → EReal) (ix2 (rowIx (t.val / 32) p) (kIx (t.val % 4) l)) := by
  obtain ⟨e0, e1, -⟩ := idx_facts2 t
  have hN : t.val < 128 := lt_of_lt_of_eq t.isLt N_2
  show (V c main_v0_0 : S8192x4096.Idx → EReal) (((cfg2.win 0).blk t).view.emb (ix2 p l)) = _
  refine congrArg (V c main_v0_0 : S8192x4096.Idx → EReal) (funext fun a => Fin.ext ?_)
  match a with
  | ⟨0, _⟩ =>
    show win2_0.index t (0 : Fin 2) * 2048 + 1 * p.val = (t.val / 32 % 4) * 2048 + p.val
    omega
  | ⟨1, _⟩ =>
    show win2_0.index t (1 : Fin 2) * 1024 + 1 * l.val = (t.val % 4 % 4) * 1024 + l.val
    omega

/-- Entry `(q, l)` of the second operand's block at `t`: row `q` of column tile `(t / 4) % 8`, position `l` of contraction block `t % 4`. -/
theorem blk1_apply (c : Dev nD) (t : Fin cfg2.N) (q : Fin 1024) (l : Fin 1024) :
    iblk2 V c 1 t (ix2 q l) = (V c main_v1_0 : S8192x4096.Idx → EReal) (ix2 (colIx (t.val / 4) q) (kIx (t.val % 4) l)) := by
  obtain ⟨-, -, e2, e3, -⟩ := idx_facts2 t
  show (V c main_v1_0 : S8192x4096.Idx → EReal) (((cfg2.win 1).blk t).view.emb (ix2 q l)) = _
  refine congrArg (V c main_v1_0 : S8192x4096.Idx → EReal) (funext fun a => Fin.ext ?_)
  match a with
  | ⟨0, _⟩ =>
    show win2_1.index t (0 : Fin 2) * 1024 + 1 * q.val = (t.val / 4 % 8) * 1024 + q.val
    omega
  | ⟨1, _⟩ =>
    show win2_1.index t (1 : Fin 2) * 1024 + 1 * l.val = (t.val % 4 % 4) * 1024 + l.val
    omega

/-- Entry `p` of the block of the first operand's row norms at `t`: row `p` of row tile `t / 32`. -/
theorem blk2_apply (c : Dev nD) (t : Fin cfg2.N) (p : Fin 2048) :
    iblk2 V c 2 t (ix2 p 0) = (V c main_v0_1 : S8192x1.Idx → EReal) (ix2 (rowIx (t.val / 32) p) 0) := by
  obtain ⟨-, -, -, -, e4, e5, -⟩ := idx_facts2 t
  have hN : t.val < 128 := lt_of_lt_of_eq t.isLt N_2
  show (V c main_v0_1 : S8192x1.Idx → EReal) (((cfg2.win 2).blk t).view.emb (ix2 p 0)) = _
  refine congrArg (V c main_v0_1 : S8192x1.Idx → EReal) (funext fun a => Fin.ext ?_)
  match a with
  | ⟨0, _⟩ =>
    show win2_2.index t (0 : Fin 2) * 2048 + 1 * p.val = (t.val / 32 % 4) * 2048 + p.val
    omega
  | ⟨1, _⟩ =>
    show win2_2.index t (1 : Fin 2) * 1 + 1 * 0 = 0
    omega

/-- Entry `q` of the block of the second operand's row norms at `t`: row `q` of column tile `(t / 4) % 8`. -/
theorem blk3_apply (c : Dev nD) (t : Fin cfg2.N) (q : Fin 1024) :
    iblk2 V c 3 t (ix2 0 q) = (V c main_v2 : S1x8192.Idx → EReal) (ix2 0 (colIx (t.val / 4) q)) := by
  obtain ⟨-, -, -, -, -, -, e6, e7, -⟩ := idx_facts2 t
  show (V c main_v2 : S1x8192.Idx → EReal) (((cfg2.win 3).blk t).view.emb (ix2 0 q)) = _
  refine congrArg (V c main_v2 : S1x8192.Idx → EReal) (funext fun a => Fin.ext ?_)
  match a with
  | ⟨0, _⟩ =>
    show win2_3.index t (0 : Fin 2) * 1 + 1 * 0 = 0
    omega
  | ⟨1, _⟩ =>
    show win2_3.index t (1 : Fin 2) * 1024 + 1 * q.val = (t.val / 4 % 8) * 1024 + q.val
    omega

/-! ## The output tile at a point, and the cover -/

/-- Entry `(p, q)` of the output tile at `t` is entry (row `p` of row tile `t / 32`, column `q` of column tile `(t / 4) % 8`) of the result. -/
theorem emb4 (t : Fin cfg2.N) (p : Fin 2048) (q : Fin 1024) :
    ((cfg2.win 4).blk t).view.emb (ix2 p q) = (ix2 (rowIx (t.val / 32) p) (colIx (t.val / 4) q) : S8192x8192.Idx) := by
  obtain ⟨-, -, -, -, -, -, -, -, e8, e9⟩ := idx_facts2 t
  have hN : t.val < 128 := lt_of_lt_of_eq t.isLt N_2
  refine funext fun a => Fin.ext ?_
  match a with
  | ⟨0, _⟩ =>
    show win2_4.index t (0 : Fin 2) * 2048 + 1 * p.val = (t.val / 32 % 4) * 2048 + p.val
    omega
  | ⟨1, _⟩ =>
    show win2_4.index t (1 : Fin 2) * 1024 + 1 * q.val = (t.val / 4 % 8) * 1024 + q.val
    omega

/-- An index of the result is in point `t`'s output tile iff each coordinate is in the tile's range on its axis. -/
theorem mem_blk4 (t : Fin cfg2.N) (i : S8192x8192.Idx) :
    i ∈ ((cfg2.win 4).blk t).view.set ↔ ∀ a : Fin 2, win2_4.index t a * S2048x1024.size a ≤ (i a).val ∧ (i a).val < win2_4.index t a * S2048x1024.size a + S2048x1024.size a := by
  show i ∈ ((View.whole main_v3).slice (win2_4.rect t)).set ↔ _
  rw [View.set_slice_whole, Rect.mem_set_unit]
  exact Iff.rfl

/-- Every entry `(r, s)` of the result is in the tile written back at the last contraction block of row tile `r / 2048`
    and column tile `s / 1024`. -/
theorem cover4 : ∀ i : S8192x8192.Idx, ∃ t : Fin cfg2.N, (cfg2.win 4).flush t = true ∧ i ∈ ((cfg2.win 4).blk t).view.set := by
  intro i
  have hi0 : (i 0).val < 8192 := (i 0).isLt
  have hi1 : (i 1).val < 8192 := (i 1).isLt
  have hN : cfg2.N = 128 := N_2
  let t : Fin cfg2.N := ⟨(((i 0).val / 2048) * 8 + (i 1).val / 1024) * 4 + 3, by rw [hN]; omega⟩
  have ht : t.val = (((i 0).val / 2048) * 8 + (i 1).val / 1024) * 4 + 3 := rfl
  obtain ⟨-, -, -, -, -, -, -, -, e8, e9⟩ := idx_facts2 t
  refine ⟨t, (flush2_4 t).mpr (by omega), ?_⟩
  rw [mem_blk4]
  intro a
  match a with
  | ⟨0, _⟩ =>
    show win2_4.index t (0 : Fin 2) * 2048 ≤ (i 0).val ∧ (i 0).val < win2_4.index t (0 : Fin 2) * 2048 + 2048
    omega
  | ⟨1, _⟩ =>
    show win2_4.index t (1 : Fin 2) * 1024 ≤ (i 1).val ∧ (i 1).val < win2_4.index t (1 : Fin 2) * 1024 + 1024
    omega

end Cert.KernelIdeal.Hand

end
-- ==== Proof.Val2.lean ====
/-
  The value the matrix-product launch leaves in its output array, index by index, from the four arrays it is
  entered with (the two operands, the column of row norms and the row of weight-row norms): the accumulator
  after grid point `t` holds, at (p, q), the partial sum over the contraction blocks up to `t mod 4` of the
  products of row (tile, p) with weight row (tile, q) (by induction on the point: the first block starts from
  the zero fill, a later block adds to what the point before left, and between them the tiles do not change);
  at a last-block point the output tile receives that sum — by then the whole inner product — divided by the
  product of the two norms; the output tiles written back at those points cover the array.
-/
import proofs.«134577_j46729244180934_2_alg».proof.Proof.R2Pieces
import proofs.«134577_j46729244180934_2_alg».proof.Proof.Val2Pay
import proofs.«134577_j46729244180934_2_alg».proof.Proof.Val2Blocks
import proofs.«134577_j46729244180934_2_alg».proof.Proof.AccSum

set_option maxRecDepth 16384

noncomputable section

open scoped BigOperators

namespace Cert.KernelIdeal.Hand

open Cert.KernelIdeal Cert.KernelIdeal.Gen Cert.Cosine
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The four arrays the launch is entered with, as functions of an index. -/
abbrev AX (c : Dev nD) : S8192x4096.Idx → EReal := V c main_v0_0
abbrev AW (c : Dev nD) : S8192x4096.Idx → EReal := V c main_v1_0
abbrev AN (c : Dev nD) : S8192x1.Idx → EReal := V c main_v0_1
abbrev AM (c : Dev nD) : S1x8192.Idx → EReal := V c main_v2

/-- Row `p` of row tile `a` of the first operand, and weight row `q` of column tile `b`, along the long axis. -/
def xrow (c : Dev nD) (a : ℕ) (p : Fin 2048) : Fin 4096 → EReal := fun k => AX V c (ix2 (rowIx a p) k)
def wrow (c : Dev nD) (b : ℕ) (q : Fin 1024) : Fin 4096 → EReal := fun k => AW V c (ix2 (colIx b q) k)

/-- Term `k` of the inner product of those two rows. -/
def term (c : Dev nD) (a b : ℕ) (p : Fin 2048) (q : Fin 1024) : Fin 4096 → EReal :=
  fun k => xrow V c a p k * wrow V c b q k

/-- The accumulating store at (p, q): what was there plus the contraction block's sum, whenever the two operand
    blocks hold that block of the two rows. -/
theorem acc_step (v3 : Vec Ideal S2048x1024 .f32) (v4 : Vec Ideal S2048x1024 .bf16) (v6 : Vec Ideal S1024x1024 .bf16)
    (a w : Fin 4096 → EReal) (k : ℕ) (p : Fin 2048) (q : Fin 1024)
    (h4 : ∀ l : Fin 1024, v4 (ix2 p l) = a (kIx k l)) (h6 : ∀ l : Fin 1024, v6 (ix2 q l) = w (kIx k l)) :
    k2_pay2 v3 v4 v6 (ix2 p q) = v3 (ix2 p q) + blockSumN (fun j => a j * w j) k :=
  (pay2_apply v3 v4 v6 p q).trans (congrArg (v3 (ix2 p q) + ·) (Finset.sum_congr rfl fun l _ => by rw [h4 l, h6 l]))

/-! ## One grid point's effect on the accumulator, in small steps -/

/-- Point `t`'s two operand blocks added into contents `xs`, at (p, q). -/
theorem add_block (c : Dev nD) (t : Fin cfg2.N) (xs : Vec Ideal S2048x1024 .f32) (p : Fin 2048) (q : Fin 1024) :
    k2_pay2 xs (iblk2 V c 0 t) (iblk2 V c 1 t) (ix2 p q) = xs (ix2 p q) + blockSumN (term V c (t.val / 32) (t.val / 4) p q) (t.val % 4) :=
  acc_step xs (iblk2 V c 0 t) (iblk2 V c 1 t) (xrow V c (t.val / 32) p) (wrow V c (t.val / 4) q) (t.val % 4) p q
    (fun l => blk0_apply V c t p l) (fun l => blk1_apply V c t q l)

theorem zero_fill (X : EReal) (p : Fin 2048) (q : Fin 1024) : k2_pay1 (F := Ideal) (ix2 p q) + X = 0 + X := by
  rw [pay1_apply]

theorem accA_1 (c : Dev nD) (t : Fin cfg2.N) (h0 : t.val % 4 = 0) (h1 : ¬t.val % 4 = 3) (p : Fin 2048) (q : Fin 1024) :
    (outsAt2 V c t.val t.isLt).2 (ix2 p q) = readS (runA V c t h0 h1).2.1 (ix2 p q) := by
  rw [outsAt2_A V c t h0 h1]

theorem accA_2 (c : Dev nD) (t : Fin cfg2.N) (h0 : t.val % 4 = 0) (h1 : ¬t.val % 4 = 3) (p : Fin 2048) (q : Fin 1024) :
    readS (runA V c t h0 h1).2.1 (ix2 p q) = k2_pay2 (k2_pay1 (F := Ideal)) (iblk2 V c 0 t) (iblk2 V c 1 t) (ix2 p q) :=
  congrFun (readS_A V c t h0 h1) (ix2 p q)

theorem accB_1 (c : Dev nD) (t : Fin cfg2.N) (h0 : ¬t.val % 4 = 0) (h1 : ¬t.val % 4 = 3) (p : Fin 2048) (q : Fin 1024) :
    (outsAt2 V c t.val t.isLt).2 (ix2 p q)
      = readS (runB V c t h0 h1 (outsAt2 V c (t.val - 1) (Nat.lt_of_le_of_lt (Nat.sub_le _ _) t.isLt)).2).2.1 (ix2 p q) := by
  rw [outsAt2_B V c t h0 h1]

theorem accB_2 (c : Dev nD) (t : Fin cfg2.N) (h0 : ¬t.val % 4 = 0) (h1 : ¬t.val % 4 = 3) (xs : Vec Ideal S2048x1024 .f32) (p : Fin 2048) (q : Fin 1024) :
    readS (runB V c t h0 h1 xs).2.1 (ix2 p q) = k2_pay2 xs (iblk2 V c 0 t) (iblk2 V c 1 t) (ix2 p q) :=
  congrFun (readS_B V c t h0 h1 xs) (ix2 p q)

theorem accC_1 (c : Dev nD) (t : Fin cfg2.N) (h0 : ¬t.val % 4 = 0) (h1 : t.val % 4 = 3) (p : Fin 2048) (q : Fin 1024) :
    (outsAt2 V c t.val t.isLt).2 (ix2 p q)
      = readS (runC V c t h0 h1 (outsAt2 V c (t.val - 1) (Nat.lt_of_le_of_lt (Nat.sub_le _ _) t.isLt)).2).2.1 (ix2 p q) := by
  rw [outsAt2_C V c t h0 h1]

theorem accC_2 (c : Dev nD) (t : Fin cfg2.N) (h0 : ¬t.val % 4 = 0) (h1 : t.val % 4 = 3) (xs : Vec Ideal S2048x1024 .f32) (p : Fin 2048) (q : Fin 1024) :
    readS (runC V c t h0 h1 xs).2.1 (ix2 p q) = k2_pay2 xs (iblk2 V c 0 t) (iblk2 V c 1 t) (ix2 p q) :=
  congrFun (readS_C V c t h0 h1 xs) (ix2 p q)

/-- A first-block point leaves the zero fill plus its block of the inner product. -/
theorem stepA (c : Dev nD) (t : Fin cfg2.N) (h0 : t.val % 4 = 0) (p : Fin 2048) (q : Fin 1024) :
    (outsAt2 V c t.val t.isLt).2 (ix2 p q) = 0 + blockSumN (term V c (t.val / 32) (t.val / 4) p q) (t.val % 4) :=
  have h1 : ¬t.val % 4 = 3 := by omega
  (accA_1 V c t h0 h1 p q).trans ((accA_2 V c t h0 h1 p q).trans ((add_block V c t (k2_pay1 (F := Ideal)) p q).trans (zero_fill _ p q)))

/-- A later point adds its block of the inner product to what the point before left. -/
theorem stepBC (c : Dev nD) (t : Fin cfg2.N) (h0 : ¬t.val % 4 = 0) (p : Fin 2048) (q : Fin 1024) :
    (outsAt2 V c t.val t.isLt).2 (ix2 p q)
      = (outsAt2 V c (t.val - 1) (Nat.lt_of_le_of_lt (Nat.sub_le _ _) t.isLt)).2 (ix2 p q) + blockSumN (term V c (t.val / 32) (t.val / 4) p q) (t.val % 4) := by
  by_cases h1 : t.val % 4 = 3
  · exact (accC_1 V c t h0 h1 p q).trans ((accC_2 V c t h0 h1 _ p q).trans (add_block V c t _ p q))
  · exact (accB_1 V c t h0 h1 p q).trans ((accB_2 V c t h0 h1 _ p q).trans (add_block V c t _ p q))

/-- THE ACCUMULATOR after position `n`: the partial sums up to contraction block `n mod 4`. -/
theorem acc_eq (c : Dev nD) (n : ℕ) : ∀ (hn : n < cfg2.N) (p : Fin 2048) (q : Fin 1024),
    (outsAt2 V c n hn).2 (ix2 p q) = accTo (term V c (n / 32) (n / 4) p q) (n % 4) := by
  induction n with
  | zero =>
    intro hn p q
    exact stepA V c ⟨0, hn⟩ (Nat.zero_mod 4) p q
  | succ n ih =>
    intro hn p q
    by_cases h0 : (n + 1) % 4 = 0
    · refine (stepA V c ⟨n + 1, hn⟩ h0 p q).trans ?_
      show 0 + blockSumN (term V c ((n + 1) / 32) ((n + 1) / 4) p q) ((n + 1) % 4) = accTo (term V c ((n + 1) / 32) ((n + 1) / 4) p q) ((n + 1) % 4)
      rw [h0]; rfl
    · refine (stepBC V c ⟨n + 1, hn⟩ h0 p q).trans ?_
      show (outsAt2 V c n (Nat.lt_of_succ_lt hn)).2 (ix2 p q) + blockSumN (term V c ((n + 1) / 32) ((n + 1) / 4) p q) ((n + 1) % 4)
        = accTo (term V c ((n + 1) / 32) ((n + 1) / 4) p q) ((n + 1) % 4)
      rw [ih (Nat.lt_of_succ_lt hn) p q]
      have e1 : n / 32 = (n + 1) / 32 := by omega
      have e2 : n / 4 = (n + 1) / 4 := by omega
      have e3 : (n + 1) % 4 = n % 4 + 1 := by omega
      rw [e1, e2, e3, accTo_succ]

/-- The quotient of the whole inner product by the two norms. -/
def mmG (c : Dev nD) : S8192x8192.Idx → EReal := fun i =>
  Ideal.div (∑ k : Fin 4096, AX V c (ix2 (i 0) k) * AW V c (ix2 (i 1) k)) (AN V c (ix2 (i 0) 0) * AM V c (ix2 0 (i 1)))

theorem mmG_ix2 (c : Dev nD) (r s : Fin 8192) : mmG V c (ix2 r s)
    = Ideal.div (∑ k : Fin 4096, AX V c (ix2 r k) * AW V c (ix2 s k)) (AN V c (ix2 r 0) * AM V c (ix2 0 s)) := rfl

theorem outC_1 (c : Dev nD) (t : Fin cfg2.N) (h0 : ¬t.val % 4 = 0) (h1 : t.val % 4 = 3) (p : Fin 2048) (q : Fin 1024) :
    (outsAt2 V c t.val t.isLt).1 (ix2 p q)
      = readO (runC V c t h0 h1 (outsAt2 V c (t.val - 1) (Nat.lt_of_le_of_lt (Nat.sub_le _ _) t.isLt)).2).1 (ix2 p q) := by
  rw [outsAt2_C V c t h0 h1]

theorem outC_2 (c : Dev nD) (t : Fin cfg2.N) (h0 : ¬t.val % 4 = 0) (h1 : t.val % 4 = 3) (xs : Vec Ideal S2048x1024 .f32) (p : Fin 2048) (q : Fin 1024) :
    readO (runC V c t h0 h1 xs).1 (ix2 p q) = k2_pay3 (iblk2 V c 2 t) (iblk2 V c 3 t) (k2_pay2 xs (iblk2 V c 0 t) (iblk2 V c 1 t)) (ix2 p q) :=
  congrFun (readO_C V c t h0 h1 xs) (ix2 p q)

/-- The dividing store at (p, q), given the two norm blocks' entries. -/
theorem div_step (v16 : Vec Ideal S2048x1 .f32) (v18 : Vec Ideal S1x1024 .f32) (v23 : Vec Ideal S2048x1024 .f32)
    (n w : EReal) (p : Fin 2048) (q : Fin 1024) (h16 : v16 (ix2 p 0) = n) (h18 : v18 (ix2 0 q) = w) :
    k2_pay3 v16 v18 v23 (ix2 p q) = Ideal.div (v23 (ix2 p q)) (n * w) :=
  (pay3_apply v16 v18 v23 p q).trans (by rw [h16, h18])

theorem div_norms (c : Dev nD) (t : Fin cfg2.N) (v23 : Vec Ideal S2048x1024 .f32) (p : Fin 2048) (q : Fin 1024) :
    k2_pay3 (iblk2 V c 2 t) (iblk2 V c 3 t) v23 (ix2 p q)
      = Ideal.div (v23 (ix2 p q)) (AN V c (ix2 (rowIx (t.val / 32) p) 0) * AM V c (ix2 0 (colIx (t.val / 4) q))) :=
  div_step (iblk2 V c 2 t) (iblk2 V c 3 t) v23 _ _ p q (blk2_apply V c t p) (blk3_apply V c t q)

/-- At a last-block point the accumulator holds the whole inner product. -/
theorem acc_last (c : Dev nD) (t : Fin cfg2.N) (h0 : ¬t.val % 4 = 0) (h1 : t.val % 4 = 3) (p : Fin 2048) (q : Fin 1024) :
    k2_pay2 (outsAt2 V c (t.val - 1) (Nat.lt_of_le_of_lt (Nat.sub_le _ _) t.isLt)).2 (iblk2 V c 0 t) (iblk2 V c 1 t) (ix2 p q)
      = ∑ k : Fin 4096, term V c (t.val / 32) (t.val / 4) p q k :=
  ((accC_1 V c t h0 h1 p q).trans (accC_2 V c t h0 h1 _ p q)).symm.trans
    ((acc_eq V c t.val t.isLt p q).trans (by rw [h1]; exact accTo_three _))

/-- What a last-block point leaves in the output tile. -/
theorem out_eq (c : Dev nD) (t : Fin cfg2.N) (h1 : t.val % 4 = 3) (p : Fin 2048) (q : Fin 1024) :
    (outsAt2 V c t.val t.isLt).1 (ix2 p q) = mmG V c (ix2 (rowIx (t.val / 32) p) (colIx (t.val / 4) q)) :=
  have h0 : ¬t.val % 4 = 0 := by omega
  (outC_1 V c t h0 h1 p q).trans ((outC_2 V c t h0 h1 _ p q).trans ((div_norms V c t _ p q).trans
    (by rw [acc_last V c t h0 h1 p q]; rfl)))

/-- Two functions of a tile index that agree at every pair of coordinates are equal. -/
theorem fun_eq_of_ix2 {A : Type} (f g : S2048x1024.Idx → A) (h : ∀ (p : Fin 2048) (q : Fin 1024), f (ix2 p q) = g (ix2 p q)) : f = g :=
  funext fun j => by rw [eq_ix2 j]; exact h _ _

set_option maxHeartbeats 1000000 in
/-- WHAT A LAST-BLOCK POINT WRITES BACK is its tile of `mmG`. -/
theorem flushed4_eq (c : Dev nD) (t : Fin cfg2.N) (hf : (cfg2.win 4).flush t = true) :
    (dat2 V c).flushed 4 t = ((cfg2.win 4).blk t).view.read (Elt Ideal) (mmG V c) := by
  have h1 : t.val % 4 = 3 := (flush2_4 t).mp hf
  show (cfg2.win 4).cut (grid2.coords t) ((dat2 V c).after 4 t) = _
  rw [after2_4]
  refine fun_eq_of_ix2 _ _ fun p q => ?_
  show (outsAt2 V c t.val t.isLt).1 (ix2 p q) = mmG V c (((cfg2.win 4).blk t).view.emb (ix2 p q))
  rw [out_eq V c t h1 p q, emb4 t p q]

/-- THE OUTPUT ARRAY after the launch. -/
theorem final4 (c : Dev nD) : (dat2 V c).arrAt 4 cfg2.N = mmG V c :=
  (dat2 V c).arrAt_eq_of_cover 4 (mmG V c) (fun t hf => flushed4_eq V c t hf) cover4

end Cert.KernelIdeal.Hand

end
-- ==== Proof.ValA.lean ====
/- What the two row-norm regions leave in their output arrays, on the extended reals.

   Each region walks the 16 blocks of 512 rows of its input array `A : [8192, 4096]` and at block `t` writes back
   two blocks computed from rows `512 t … 512 t + 511` of `A` alone:

     • to the first output, the same rows in the narrower float format — on the extended reals the same numbers;
     • to the second output, for each row `r`, `max (√(∑ k, A[r,k]²)) eps`: the lane sum starts from the zero word,
       the neutral element of the sum, so it is the plain finite sum over the row's 4096 entries; the reshape of the
       512 sums into a column only moves an index; and the square root, the maximum and the constant are the
       specification's own.

   Every block is therefore the restriction, to its rows, of ONE function of the whole input array; row `r` lies in
   the block of point `r / 512`, so the 16 blocks cover each output array, and after the region

     • the first output array is the input array, entry for entry (`arrK_1`);
     • the second output array holds at `(r, 0)` the clamped norm of row `r` (`arrK_2`).

   No law of arithmetic is used beyond reading a sum term by term, so nothing is assumed finite. -/
import proofs.«134577_j46729244180934_2_alg».proof.Proof.FrameA
import proofs.«134577_j46729244180934_2_alg».proof.Proof.Spec
import proofs.«134577_j46729244180934_2_alg».proof.Proof.LibColumn
import Idealize.ShloMosaic.Lib.Pipeline.Value
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-! ## The body's two stored values, read at an index -/

/-- The zero offsets of a whole-buffer rectangle, as a constant function. -/
theorem hz : (![0, 0] : Fin 2 → Nat) = fun _ => 0 := funext fun a => by fin_cases a <;> rfl

/-- A row index of the block with the lane `k` inserted is the entry `(p, k)`. -/
theorem lift_row (p : Fin 512) (k : Fin 4096) :
    (reduces_S512x4096_S512).lift (ix1 p) k = ix2 p k :=
  funext fun a => Fin.ext (by match a with | ⟨0, _⟩ => rfl | ⟨1, _⟩ => rfl)

/-- The sum along the lanes of a [512, 4096] block, started from the zero word, at row `p`: the sum over the 4096
    entries of the row. -/
theorem laneSum (v : FVec Ideal S512x4096 .f32) (hφ : FKind.Formats .f32)
    (hacc : (0x00000000#32 : BitVec 32) = 0x00000000#32) (p : Fin 512) :
    multiReduction .add [1] S512 v 0x00000000#32 reduces_S512x4096_S512 hφ hacc (ix1 p) = ∑ k : Fin 4096, v (ix2 p k) := by
  refine (Ideal.multiReduction_add_single v 0x00000000#32 reduces_S512x4096_S512 hφ hacc (ix1 p)).trans ?_
  exact Finset.sum_congr rfl fun k _ => congrArg v (lift_row p k)

/-! # Region 0 -/

/-- On the extended reals the narrower format holds the same number: the first stored value is the block itself. -/
theorem pay1_apply0 (x : Vec Ideal S512x4096 .f32) (j : S512x4096.Idx) : (k0_pay1 x j : EReal) = x j := rfl

/-- The second stored value at row `p`: the larger of the square root of the sum of the row's squares and the constant. -/
theorem pay2_apply0 (x : Vec Ideal S512x4096 .f32) (p : Fin 512) (u : Fin 1) :
    (k0_pay2 x (ix2 p u) : EReal) = max (Ideal.sqrt (∑ k : Fin 4096, x (ix2 p k) * x (ix2 p k))) Cert.Cosine.eps := by
  unfold k0_pay2
  show max (Ideal.sqrt (shapeCast S512x1 (multiReduction (F := Ideal) .add [1] S512 (mulf x x) 0x00000000#32 reduces_S512x4096_S512 (.inl rfl) rfl) shapeCasts_S512_S512x1 (ix2 p u))) (Ideal.ofBits .f32 0x322BCC77#32) = _
  rw [shapeCast_a_a1_apply]
  refine congrArg (fun s => max (Ideal.sqrt s) Cert.Cosine.eps) ?_
  exact laneSum (mulf x x) (.inl rfl) rfl p

section
variable (V : (c : Dev nD) → (b : Ref sig .tc) → Buf (Elt Ideal) ((c : Thread nD τ).loc b))

/-- The index maps over the 16 points: at point `t` every window is at block `t` of the rows and block 0 of the
    columns. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The input block at point `t` is rows `512 t … 512 t + 511` of the input array. -/
theorem iblk0_apply (c : Dev nD) (t : Fin cfg0.N) (x : S512x4096.Idx) (i : S8192x4096.Idx)
    (h0 : (i 0).val = t.val * 512 + (x 0).val) (h1 : (i 1).val = (x 1).val) :
    (iblk0 V c 0 t : Vec Ideal S512x4096 .f32) x = (V c (Pipeline.arrRef spec0 0) : S8192x4096.Idx → EReal) i := by
  obtain ⟨e0, e1, -⟩ := idx_facts0 t
  unfold iblk0
  rw [View.read_apply]
  show V c (Pipeline.arrRef spec0 0) _ = V c (Pipeline.arrRef spec0 0) _
  refine congrArg (V c (Pipeline.arrRef spec0 0)) ?_
  funext a
  apply Fin.ext
  match a with
  | ⟨0, _⟩ => show win0_0.index t (0 : Fin 2) * 512 + 1 * (x 0).val = (i 0).val; rw [e0, h0]; omega
  | ⟨1, _⟩ => show win0_0.index t (1 : Fin 2) * 4096 + 1 * (x 1).val = (i 1).val; rw [e1, h1]; omega

/-! ## The first output array: the input array -/

/-- What point `t` writes back to the first output is block `t` of the input array. -/
theorem flushed0_1_eq (c : Dev nD) (t : Fin cfg0.N) :
    (dat0 (F := Ideal) V c).flushed 1 t = ((cfg0.win 1).blk t).view.read (Elt Ideal) (fun i => V c (Pipeline.arrRef spec0 0) i) := by
  show (cfg0.win 1).cut (grid0.coords t) ((dat0 V c).after 1 t) = _
  rw [after0_1]
  unfold out0_1
  rw [View.canon_unit_zero hz]
  simp only [View.ld_unit_zero (S := S512x4096) hz]
  funext j
  show (k0_pay1 (iblk0 V c 0 t) j : EReal) = V c (Pipeline.arrRef spec0 0) (((cfg0.win 1).blk t).view.emb j)
  refine (pay1_apply0 (iblk0 V c 0 t) j).trans ?_
  obtain ⟨-, -, e2, e3, -⟩ := idx_facts0 t
  refine iblk0_apply V c t j _ ?_ ?_
  · show win0_1.index t (0 : Fin 2) * 512 + 1 * (j 0).val = t.val * 512 + (j 0).val; rw [e2]; omega
  · show win0_1.index t (1 : Fin 2) * 4096 + 1 * (j 1).val = (j 1).val; rw [e3]; omega

/-- An index of the first output array is in point `t`'s block iff each coordinate is in the block's range. -/
theorem mem_blk0_1 (t : Fin cfg0.N) (i : S8192x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0_0).slice (win0_1.rect t)).set ↔ _
  rw [View.set_slice_whole, Rect.mem_set_unit]
  exact Iff.rfl

/-- Row `r` of the first output array is written by point `r / 512`. -/
theorem covered0_1 (i : S8192x4096.Idx) : ∃ t : Fin cfg0.N, (cfg0.win 1).flush t = true ∧ i ∈ ((cfg0.win 1).blk t).view.set := by
  have hi0 : (i 0).val < 8192 := (i 0).isLt
  have hi1 : (i 1).val < 4096 := (i 1).isLt
  obtain ⟨t, ht⟩ : ∃ t : Fin cfg0.N, t.val = (i 0).val / 512 :=
    ⟨⟨(i 0).val / 512, by show _ < grid0.N; rw [N_0]; omega⟩, rfl⟩
  obtain ⟨-, -, e2, e3, -⟩ := idx_facts0 t
  refine ⟨t, flush0_1 t, ?_⟩
  rw [mem_blk0_1]
  intro a
  match a with
  | ⟨0, _⟩ => show win0_1.index t (0 : Fin 2) * 512 ≤ (i 0).val ∧ (i 0).val < win0_1.index t (0 : Fin 2) * 512 + 512; rw [e2, ht]; omega
  | ⟨1, _⟩ => show win0_1.index t (1 : Fin 2) * 4096 ≤ (i 1).val ∧ (i 1).val < win0_1.index t (1 : Fin 2) * 4096 + 4096; rw [e3]; omega

/-- After the region the first output array holds the input array, entry for entry. -/
theorem arr0_1 (c : Dev nD) : (dat0 (F := Ideal) V c).arrAt 1 cfg0.N = fun i => V c (Pipeline.arrRef spec0 0) i :=
  (dat0 (F := Ideal) V c).arrAt_eq_of_cover 1 (fun i => V c (Pipeline.arrRef spec0 0) i) (fun t _ => flushed0_1_eq V c t) covered0_1

/-! ## The second output array: the clamped row norms -/

/-- The column of clamped row norms of the input array. -/
def norms0 (c : Dev nD) : S8192x1.Idx → EReal := fun i => Cert.Cosine.rowNorm (V c (Pipeline.arrRef spec0 0)) (i 0)

theorem norms0_apply (c : Dev nD) (i : S8192x1.Idx) (r : Fin 8192) (h : (i 0).val = r.val) :
    norms0 V c i = Cert.Cosine.rowNorm (V c (Pipeline.arrRef spec0 0)) r := by
  have e : i 0 = r := Fin.ext h
  unfold norms0; rw [e]

/-- What point `t` writes back to the second output is block `t` of the column of clamped row norms. -/
theorem flushed0_2_eq (c : Dev nD) (t : Fin cfg0.N) :
    (dat0 (F := Ideal) V c).flushed 2 t = ((cfg0.win 2).blk t).view.read (Elt Ideal) (norms0 V c) := by
  show (cfg0.win 2).cut (grid0.coords t) ((dat0 V c).after 2 t) = _
  rw [after0_2]
  unfold out0_2
  rw [View.canon_unit_zero hz]
  simp only [View.ld_unit_zero (S := S512x4096) hz]
  funext j
  obtain ⟨p, u, rfl⟩ : ∃ (p : Fin 512) (u : Fin 1), j = ix2 p u := ⟨j 0, j 1, eq_ix2 j⟩
  show (k0_pay2 (iblk0 V c 0 t) (ix2 p u) : EReal) = norms0 V c (((cfg0.win 2).blk t).view.emb (ix2 p u))
  refine (pay2_apply0 (iblk0 V c 0 t) p u).trans ?_
  obtain ⟨-, -, -, -, e4, e5⟩ := idx_facts0 t
  have htN : t.val < 16 := by have h := t.isLt; have hN : cfg0.N = 16 := N_0; omega
  have hrow : ((((cfg0.win 2).blk t).view.emb (ix2 p u)) 0).val = t.val * 512 + p.val := by
    show win0_2.index t (0 : Fin 2) * 512 + 1 * p.val = _; rw [e4]; omega
  refine Eq.trans ?_ (norms0_apply V c _ ⟨t.val * 512 + p.val, by omega⟩ hrow).symm
  unfold Cert.Cosine.rowNorm Cert.Cosine.sumSq
  refine congrArg (fun s => max (Ideal.sqrt s) Cert.Cosine.eps) (Finset.sum_congr rfl fun k _ => ?_)
  rw [iblk0_apply V c t (ix2 p k) (ix2 ⟨t.val * 512 + p.val, by omega⟩ k) rfl rfl]

/-- An index of the second output array is in point `t`'s block iff each coordinate is in the block's range. -/
theorem mem_blk0_2 (t : Fin cfg0.N) (i : S8192x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v0_1).slice (win0_2.rect t)).set ↔ _
  rw [View.set_slice_whole, Rect.mem_set_unit]
  exact Iff.rfl

/-- Row `r` of the second output array is written by point `r / 512`. -/
theorem covered0_2 (i : S8192x1.Idx) : ∃ t : Fin cfg0.N, (cfg0.win 2).flush t = true ∧ i ∈ ((cfg0.win 2).blk t).view.set := by
  have hi0 : (i 0).val < 8192 := (i 0).isLt
  have hi1 : (i 1).val < 1 := (i 1).isLt
  obtain ⟨t, ht⟩ : ∃ t : Fin cfg0.N, t.val = (i 0).val / 512 :=
    ⟨⟨(i 0).val / 512, by show _ < grid0.N; rw [N_0]; omega⟩, rfl⟩
  obtain ⟨-, -, -, -, e4, e5⟩ := idx_facts0 t
  refine ⟨t, flush0_2 t, ?_⟩
  rw [mem_blk0_2]
  intro a
  match a with
  | ⟨0, _⟩ => show win0_2.index t (0 : Fin 2) * 512 ≤ (i 0).val ∧ (i 0).val < win0_2.index t (0 : Fin 2) * 512 + 512; rw [e4, ht]; omega
  | ⟨1, _⟩ => show win0_2.index t (1 : Fin 2) * 1 ≤ (i 1).val ∧ (i 1).val < win0_2.index t (1 : Fin 2) * 1 + 1; rw [e5]; omega

/-- After the region the second output array is the column of clamped row norms of the input array. -/
theorem final0_2 (c : Dev nD) : (dat0 (F := Ideal) V c).arrAt 2 cfg0.N = norms0 V c :=
  (dat0 (F := Ideal) V c).arrAt_eq_of_cover 2 (norms0 V c) (fun t _ => flushed0_2_eq V c t) covered0_2

/-- So its entry in row `r` is the larger of row `r`'s Euclidean norm and the constant. -/
theorem arr0_2 (c : Dev nD) (r : Fin 8192) :
    (dat0 (F := Ideal) V c).arrAt 2 cfg0.N (ValueIdx.ix2 r 0) = Cert.Cosine.rowNorm (V c (Pipeline.arrRef spec0 0)) r :=
  (congrFun (final0_2 V c) (ix2 r (0 : Fin 1))).trans (norms0_apply V c (ix2 r (0 : Fin 1)) r rfl)

end

/-! # Region 1 -/

/-- On the extended reals the narrower format holds the same number: the first stored value is the block itself. -/
theorem pay1_apply1 (x : Vec Ideal S512x4096 .f32) (j : S512x4096.Idx) : (k1_pay1 x j : EReal) = x j := rfl

/-- The second stored value at row `p`: the larger of the square root of the sum of the row's squares and the constant. -/
theorem pay2_apply1 (x : Vec Ideal S512x4096 .f32) (p : Fin 512) (u : Fin 1) :
    (k1_pay2 x (ix2 p u) : EReal) = max (Ideal.sqrt (∑ k : Fin 4096, x (ix2 p k) * x (ix2 p k))) Cert.Cosine.eps := by
  unfold k1_pay2
  show max (Ideal.sqrt (shapeCast S512x1 (multiReduction (F := Ideal) .add [1] S512 (mulf x x) 0x00000000#32 reduces_S512x4096_S512 (.inl rfl) rfl) shapeCasts_S512_S512x1 (ix2 p u))) (Ideal.ofBits .f32 0x322BCC77#32) = _
  rw [shapeCast_a_a1_apply]
  refine congrArg (fun s => max (Ideal.sqrt s) Cert.Cosine.eps) ?_
  exact laneSum (mulf x x) (.inl rfl) rfl p

section
variable (V : (c : Dev nD) → (b : Ref sig .tc) → Buf (Elt Ideal) ((c : Thread nD τ).loc b))

/-- The index maps over the 16 points: at point `t` every window is at block `t` of the rows and block 0 of the
    columns. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The input block at point `t` is rows `512 t … 512 t + 511` of the input array. -/
theorem iblk1_apply (c : Dev nD) (t : Fin cfg1.N) (x : S512x4096.Idx) (i : S8192x4096.Idx)
    (h0 : (i 0).val = t.val * 512 + (x 0).val) (h1 : (i 1).val = (x 1).val) :
    (iblk1 V c 0 t : Vec Ideal S512x4096 .f32) x = (V c (Pipeline.arrRef spec1 0) : S8192x4096.Idx → EReal) i := by
  obtain ⟨e0, e1, -⟩ := idx_facts1 t
  unfold iblk1
  rw [View.read_apply]
  show V c (Pipeline.arrRef spec1 0) _ = V c (Pipeline.arrRef spec1 0) _
  refine congrArg (V c (Pipeline.arrRef spec1 0)) ?_
  funext a
  apply Fin.ext
  match a with
  | ⟨0, _⟩ => show win1_0.index t (0 : Fin 2) * 512 + 1 * (x 0).val = (i 0).val; rw [e0, h0]; omega
  | ⟨1, _⟩ => show win1_0.index t (1 : Fin 2) * 4096 + 1 * (x 1).val = (i 1).val; rw [e1, h1]; omega

/-! ## The first output array: the input array -/

/-- What point `t` writes back to the first output is block `t` of the input array. -/
theorem flushed1_1_eq (c : Dev nD) (t : Fin cfg1.N) :
    (dat1 (F := Ideal) V c).flushed 1 t = ((cfg1.win 1).blk t).view.read (Elt Ideal) (fun i => V c (Pipeline.arrRef spec1 0) i) := by
  show (cfg1.win 1).cut (grid1.coords t) ((dat1 V c).after 1 t) = _
  rw [after1_1]
  unfold out1_1
  rw [View.canon_unit_zero hz]
  simp only [View.ld_unit_zero (S := S512x4096) hz]
  funext j
  show (k1_pay1 (iblk1 V c 0 t) j : EReal) = V c (Pipeline.arrRef spec1 0) (((cfg1.win 1).blk t).view.emb j)
  refine (pay1_apply1 (iblk1 V c 0 t) j).trans ?_
  obtain ⟨-, -, e2, e3, -⟩ := idx_facts1 t
  refine iblk1_apply V c t j _ ?_ ?_
  · show win1_1.index t (0 : Fin 2) * 512 + 1 * (j 0).val = t.val * 512 + (j 0).val; rw [e2]; omega
  · show win1_1.index t (1 : Fin 2) * 4096 + 1 * (j 1).val = (j 1).val; rw [e3]; omega

/-- An index of the first output array is in point `t`'s block iff each coordinate is in the block's range. -/
theorem mem_blk1_1 (t : Fin cfg1.N) (i : S8192x4096.Idx) :
    i ∈ ((cfg1.win 1).blk t).view.set ↔ ∀ a : Fin 2, win1_1.index t a * S512x4096.size a ≤ (i a).val ∧ (i a).val < win1_1.index t a * S512x4096.size a + S512x4096.size a := by
  show i ∈ ((View.whole main_v1_0).slice (win1_1.rect t)).set ↔ _
  rw [View.set_slice_whole, Rect.mem_set_unit]
  exact Iff.rfl

/-- Row `r` of the first output array is written by point `r / 512`. -/
theorem covered1_1 (i : S8192x4096.Idx) : ∃ t : Fin cfg1.N, (cfg1.win 1).flush t = true ∧ i ∈ ((cfg1.win 1).blk t).view.set := by
  have hi0 : (i 0).val < 8192 := (i 0).isLt
  have hi1 : (i 1).val < 4096 := (i 1).isLt
  obtain ⟨t, ht⟩ : ∃ t : Fin cfg1.N, t.val = (i 0).val / 512 :=
    ⟨⟨(i 0).val / 512, by show _ < grid1.N; rw [N_1]; omega⟩, rfl⟩
  obtain ⟨-, -, e2, e3, -⟩ := idx_facts1 t
  refine ⟨t, flush1_1 t, ?_⟩
  rw [mem_blk1_1]
  intro a
  match a with
  | ⟨0, _⟩ => show win1_1.index t (0 : Fin 2) * 512 ≤ (i 0).val ∧ (i 0).val < win1_1.index t (0 : Fin 2) * 512 + 512; rw [e2, ht]; omega
  | ⟨1, _⟩ => show win1_1.index t (1 : Fin 2) * 4096 ≤ (i 1).val ∧ (i 1).val < win1_1.index t (1 : Fin 2) * 4096 + 4096; rw [e3]; omega

/-- After the region the first output array holds the input array, entry for entry. -/
theorem arr1_1 (c : Dev nD) : (dat1 (F := Ideal) V c).arrAt 1 cfg1.N = fun i => V c (Pipeline.arrRef spec1 0) i :=
  (dat1 (F := Ideal) V c).arrAt_eq_of_cover 1 (fun i => V c (Pipeline.arrRef spec1 0) i) (fun t _ => flushed1_1_eq V c t) covered1_1

/-! ## The second output array: the clamped row norms -/

/-- The column of clamped row norms of the input array. -/
def norms1 (c : Dev nD) : S8192x1.Idx → EReal := fun i => Cert.Cosine.rowNorm (V c (Pipeline.arrRef spec1 0)) (i 0)

theorem norms1_apply (c : Dev nD) (i : S8192x1.Idx) (r : Fin 8192) (h : (i 0).val = r.val) :
    norms1 V c i = Cert.Cosine.rowNorm (V c (Pipeline.arrRef spec1 0)) r := by
  have e : i 0 = r := Fin.ext h
  unfold norms1; rw [e]

/-- What point `t` writes back to the second output is block `t` of the column of clamped row norms. -/
theorem flushed1_2_eq (c : Dev nD) (t : Fin cfg1.N) :
    (dat1 (F := Ideal) V c).flushed 2 t = ((cfg1.win 2).blk t).view.read (Elt Ideal) (norms1 V c) := by
  show (cfg1.win 2).cut (grid1.coords t) ((dat1 V c).after 2 t) = _
  rw [after1_2]
  unfold out1_2
  rw [View.canon_unit_zero hz]
  simp only [View.ld_unit_zero (S := S512x4096) hz]
  funext j
  obtain ⟨p, u, rfl⟩ : ∃ (p : Fin 512) (u : Fin 1), j = ix2 p u := ⟨j 0, j 1, eq_ix2 j⟩
  show (k1_pay2 (iblk1 V c 0 t) (ix2 p u) : EReal) = norms1 V c (((cfg1.win 2).blk t).view.emb (ix2 p u))
  refine (pay2_apply1 (iblk1 V c 0 t) p u).trans ?_
  obtain ⟨-, -, -, -, e4, e5⟩ := idx_facts1 t
  have htN : t.val < 16 := by have h := t.isLt; have hN : cfg1.N = 16 := N_1; omega
  have hrow : ((((cfg1.win 2).blk t).view.emb (ix2 p u)) 0).val = t.val * 512 + p.val := by
    show win1_2.index t (0 : Fin 2) * 512 + 1 * p.val = _; rw [e4]; omega
  refine Eq.trans ?_ (norms1_apply V c _ ⟨t.val * 512 + p.val, by omega⟩ hrow).symm
  unfold Cert.Cosine.rowNorm Cert.Cosine.sumSq
  refine congrArg (fun s => max (Ideal.sqrt s) Cert.Cosine.eps) (Finset.sum_congr rfl fun k _ => ?_)
  rw [iblk1_apply V c t (ix2 p k) (ix2 ⟨t.val * 512 + p.val, by omega⟩ k) rfl rfl]

/-- An index of the second output array is in point `t`'s block iff each coordinate is in the block's range. -/
theorem mem_blk1_2 (t : Fin cfg1.N) (i : S8192x1.Idx) :
    i ∈ ((cfg1.win 2).blk t).view.set ↔ ∀ a : Fin 2, win1_2.index t a * S512x1.size a ≤ (i a).val ∧ (i a).val < win1_2.index t a * S512x1.size a + S512x1.size a := by
  show i ∈ ((View.whole main_v1_1).slice (win1_2.rect t)).set ↔ _
  rw [View.set_slice_whole, Rect.mem_set_unit]
  exact Iff.rfl

/-- Row `r` of the second output array is written by point `r / 512`. -/
theorem covered1_2 (i : S8192x1.Idx) : ∃ t : Fin cfg1.N, (cfg1.win 2).flush t = true ∧ i ∈ ((cfg1.win 2).blk t).view.set := by
  have hi0 : (i 0).val < 8192 := (i 0).isLt
  have hi1 : (i 1).val < 1 := (i 1).isLt
  obtain ⟨t, ht⟩ : ∃ t : Fin cfg1.N, t.val = (i 0).val / 512 :=
    ⟨⟨(i 0).val / 512, by show _ < grid1.N; rw [N_1]; omega⟩, rfl⟩
  obtain ⟨-, -, -, -, e4, e5⟩ := idx_facts1 t
  refine ⟨t, flush1_2 t, ?_⟩
  rw [mem_blk1_2]
  intro a
  match a with
  | ⟨0, _⟩ => show win1_2.index t (0 : Fin 2) * 512 ≤ (i 0).val ∧ (i 0).val < win1_2.index t (0 : Fin 2) * 512 + 512; rw [e4, ht]; omega
  | ⟨1, _⟩ => show win1_2.index t (1 : Fin 2) * 1 ≤ (i 1).val ∧ (i 1).val < win1_2.index t (1 : Fin 2) * 1 + 1; rw [e5]; omega

/-- After the region the second output array is the column of clamped row norms of the input array. -/
theorem final1_2 (c : Dev nD) : (dat1 (F := Ideal) V c).arrAt 2 cfg1.N = norms1 V c :=
  (dat1 (F := Ideal) V c).arrAt_eq_of_cover 2 (norms1 V c) (fun t _ => flushed1_2_eq V c t) covered1_2

/-- So its entry in row `r` is the larger of row `r`'s Euclidean norm and the constant. -/
theorem arr1_2 (c : Dev nD) (r : Fin 8192) :
    (dat1 (F := Ideal) V c).arrAt 2 cfg1.N (ValueIdx.ix2 r 0) = Cert.Cosine.rowNorm (V c (Pipeline.arrRef spec1 0)) r :=
  (congrFun (final1_2 V c) (ix2 r (0 : Fin 1))).trans (norms1_apply V c (ix2 r (0 : Fin 1)) r rfl)

end

end Cert.KernelIdeal.Hand

end
-- ==== Proof.ValEntry.lean ====
/- What the matrix-product launch finds in its four input arrays, on the extended reals.

   Before it come: the row-norm launch on `x`, the same launch on `weights`, and the host's transpose of the
   weights' norm column `[8192, 1]` into a row `[1, 8192]`. A launch changes only its own output arrays and the host
   line only its own result, so each of the four arrays is read back, boundary by boundary, to the launch that wrote it:

     • the two narrowed copies are `x` and `weights` themselves, entry for entry (`entry_x`, `entry_w`);
     • the first norm column holds at `(r, 0)` the clamped Euclidean norm of row `r` of `x` (`entry_xn`);
     • the transposed norm row holds at `(0, o)` the clamped Euclidean norm of row `o` of `weights`: a transpose only
       exchanges the two coordinates of an index (`entry_wn`).

   The second launch reads `weights` as launched, because the first launch does not write it. -/
import proofs.«134577_j46729244180934_2_alg».proof.Proof.Main
import proofs.«134577_j46729244180934_2_alg».proof.Proof.ValA
import Idealize.ShloMosaic.Lib.StableHlo.Run
import Idealize.ShloMosaic.Lib.ValueLayout

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ)

/-! ## What the host's transpose leaves alone -/

/-- The host line writes only its own result buffer: any other buffer is as the second launch left it. -/
theorem WC_of_ne (c : Dev nD) (b : Ref sig .tc) (hb : b ≠ main_v2) :
    WC m c (Proc.devRef .tc b) = WB2 m c (Proc.devRef .tc b) :=
  StableHlo.after_of_forall_not_mem (b := Proc.devRef .tc b) _ _ (List.forall_iff_forall_mem.mp (by
    simp only [hostOps2, List.Forall, StableHlo.unary_writes, Finset.mem_singleton]
    exact StableHlo.devRef_ne_of_ne hb))

/-- The second launch finds its input array as launched: the first launch does not write it. -/
theorem VB_main_arg1 (c : Dev nD) : VB m c main_arg1 = m ((c : Thread nD τ).loc main_arg1) :=
  (WB_of_ne m c main_arg1 (by decide)).trans rfl

/-! ## The two narrowed copies are the arguments -/

/-- The first operand of the matrix product is `x`, entry for entry. -/
theorem entry_x (c : Dev nD) : (VC m c main_v0_0 : S8192x4096.Idx → EReal) = fun i => (m ((c : Thread nD τ).loc main_arg0) : S8192x4096.Idx → EReal) i :=
  calc (VC m c main_v0_0 : S8192x4096.Idx → EReal)
    _ = WB2 m c (Proc.devRef .tc main_v0_0) := WC_of_ne m c main_v0_0 (by decide)
    _ = WB m c (Proc.devRef .tc main_v0_0) := WB2_of_ne m c main_v0_0 (by decide)
    _ = (dat0 (F := Ideal) (VA m) c).arrAt 1 cfg0.N := WB_arr m c 1
    _ = fun i => VA m c (Pipeline.arrRef spec0 0) i := arr0_1 (VA m) c
    _ = fun i => (m ((c : Thread nD τ).loc main_arg0) : S8192x4096.Idx → EReal) i := rfl

/-- The second operand of the matrix product is `weights`, entry for entry. -/
theorem entry_w (c : Dev nD) : (VC m c main_v1_0 : S8192x4096.Idx → EReal) = fun i => (m ((c : Thread nD τ).loc main_arg1) : S8192x4096.Idx → EReal) i :=
  calc (VC m c main_v1_0 : S8192x4096.Idx → EReal)
    _ = WB2 m c (Proc.devRef .tc main_v1_0) := WC_of_ne m c main_v1_0 (by decide)
    _ = (dat1 (F := Ideal) (VB m) c).arrAt 1 cfg1.N := WB2_arr m c 1
    _ = fun i => VB m c (Pipeline.arrRef spec1 0) i := arr1_1 (VB m) c
    _ = fun i => (m ((c : Thread nD τ).loc main_arg1) : S8192x4096.Idx → EReal) i := by
      show (fun i => (VB m c main_arg1 : S8192x4096.Idx → EReal) i) = _
      rw [VB_main_arg1]

/-! ## The two norm columns -/

/-- The rows' norms the matrix product divides by: at `(r, 0)` the clamped norm of row `r` of `x`. -/
theorem entry_xn (c : Dev nD) (r : Fin 8192) : (VC m c main_v0_1 : S8192x1.Idx → EReal) (ValueIdx.ix2 r 0) = Cert.Cosine.rowNorm (m ((c : Thread nD τ).loc main_arg0)) r := by
  have e : (VC m c main_v0_1 : S8192x1.Idx → EReal) = (dat0 (F := Ideal) (VA m) c).arrAt 2 cfg0.N :=
    calc (VC m c main_v0_1 : S8192x1.Idx → EReal)
      _ = WB2 m c (Proc.devRef .tc main_v0_1) := WC_of_ne m c main_v0_1 (by decide)
      _ = WB m c (Proc.devRef .tc main_v0_1) := WB2_of_ne m c main_v0_1 (by decide)
      _ = (dat0 (F := Ideal) (VA m) c).arrAt 2 cfg0.N := WB_arr m c 2
  exact (congrFun e (ix2 r (0 : Fin 1))).trans (arr0_2 (VA m) c r)

/-- A column `[8192, 1]` transposed into a row `[1, 8192]` reads at `(0, o)` the column's entry `(o, 0)`. -/
theorem transpose_col_row {α : Type} (x : S8192x1.Idx → α) (o : Fin 8192) :
    transpose S1x8192 [1, 0] x transposes_S8192x1_S1x8192_1_0 (ix2 (0 : Fin 1) o) = x (ix2 o (0 : Fin 1)) :=
  transpose_apply [1, 0] x transposes_S8192x1_S1x8192_1_0 (ix2 (0 : Fin 1) o) (ix2 o (0 : Fin 1)) fun b => by
    match b with
    | ⟨0, _⟩ => rfl
    | ⟨1, _⟩ => rfl

/-- The host line's result: the second launch's norm column, transposed. -/
theorem row_eq (c : Dev nD) : (VC m c main_v2 : S1x8192.Idx → EReal)
    = transpose S1x8192 [1, 0] (WB2 m c (Proc.devRef .tc main_v1_1) : S8192x1.Idx → EReal) transposes_S8192x1_S1x8192_1_0 := by
  show StableHlo.after hostOps2 (WB2 m c) (Proc.devRef .tc main_v2) = _
  dsimp only [hostOps2]
  after_results

/-- The columns' norms the matrix product divides by: at `(0, o)` the clamped norm of row `o` of `weights`. -/
theorem entry_wn (c : Dev nD) (o : Fin 8192) : (VC m c main_v2 : S1x8192.Idx → EReal) (ValueIdx.ix2 0 o) = Cert.Cosine.rowNorm (m ((c : Thread nD τ).loc main_arg1)) o := by
  have e : (WB2 m c (Proc.devRef .tc main_v1_1) : S8192x1.Idx → EReal) = (dat1 (F := Ideal) (VB m) c).arrAt 2 cfg1.N := WB2_arr m c 2
  rw [row_eq, transpose_col_row, e]
  refine (arr1_2 (VB m) c o).trans ?_
  show Cert.Cosine.rowNorm (VB m c main_arg1) o = _
  rw [VB_main_arg1]

end Cert.KernelIdeal.Hand

end
-- ==== Proof.ValMain.lean ====
/-
  The kernel program's result as the specification's function of its two arguments: the matrix-product launch is
  entered with the two operands themselves (the 16-bit copies are the operands at the extended reals), the column of
  clamped row norms of `x` and the row of clamped row norms of `weights`; so the quotient it leaves is the clamped
  cosine similarity, index by index.
-/
import proofs.«134577_j46729244180934_2_alg».proof.Proof.Main
import proofs.«134577_j46729244180934_2_alg».proof.Proof.Val2
import proofs.«134577_j46729244180934_2_alg».proof.Proof.ValEntry

noncomputable section

open scoped BigOperators

namespace Cert.KernelIdeal.Hand

open Cert.KernelIdeal Cert.KernelIdeal.Gen Cert.Cosine
open Idealize.ShloMosaic Idealize.ShloMosaic.TcCoe Idealize.ShloMosaic.ValueIdx Idealize.SL.Sem

variable (m : (ℓ : Loc nD τ sig) → Buf (Elt Ideal) ℓ)

/-- The matrix-product launch's quotient, at the contents it is entered with, is the clamped cosine similarity of the arguments. -/
theorem mmG_entry (c : Dev nD) :
    mmG (VC m) c = Cert.Cosine.cosine (m ((c : Thread nD τ).loc main_arg0)) (m ((c : Thread nD τ).loc main_arg1)) := by
  funext i
  obtain ⟨r, s, rfl⟩ : ∃ (r s : Fin 8192), i = ix2 r s := ⟨i 0, i 1, eq_ix2 i⟩
  rw [mmG_ix2, cosine_ix2]
  unfold cosAt dotRows
  exact congrArg₂ Ideal.div
    (Finset.sum_congr rfl fun k _ => congrArg₂ (· * ·) (congrFun (entry_x m c) (ix2 r k)) (congrFun (entry_w m c) (ix2 s k)))
    (congrArg₂ (· * ·) (entry_xn m c r) (entry_wn m c s))

/-- The kernel program's run, the result named by the specification. -/
theorem run_cosine (ρ : Dev nD → PrngReg) : θ_run defs (onTc (τ := τ) (main (F := Ideal))) ⟨m, fun _ => 0, ρ⟩ (fun r => ∀ c : Dev nD,
      r.2.mem ((c.tc : Thread nD τ).loc main_v3) = Cert.Cosine.cosine (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans ((final4 (VC m) c).trans (mmG_entry m c)), (h c).2.1, (h c).2.2⟩) (run_value (F := Ideal) m ρ)

end Cert.KernelIdeal.Hand

end
-- ==== Proof.RefValue.lean ====
/-
  The reference program computes the clamped cosine similarity.

  Its run ends, for the result buffer, at one composed term of the two argument arrays `x, w : f32[8192, 4096]`:
  the contraction of `x` and `w` over their second axes, divided elementwise by the product of two broadcasts —
  down the columns, the column of clamped row norms of `x`; along the rows, the transposed column of clamped row
  norms of `w`. A clamped row norm is `max (√(0 + ∑ k, a[r,k]·a[r,k])) eps`, the sum started from the zero word.

  Read at the index `(b, o)` this is

      (∑ k, x[b,k] · w[o,k]) / (max (√(∑ k, x[b,k]²)) eps · max (√(∑ k, w[o,k]²)) eps),

  which is `Cert.Cosine.cosine x w (b, o)` term for term: the layout operations (the keep-dims column [8192] → [8192,1],
  its transpose [8192,1] → [1,8192], the two broadcasts to [8192,8192]) only move an index, the zero word is `0` and
  `0 + s = s`, and on the extended reals the square root, the maximum and the quotient are the specification's own.
  No law of arithmetic beyond `0 + s = s` is used, so nothing is assumed finite.
-/
import proofs.«134577_j46729244180934_2_alg».proof.Proof.Gen.ReferenceIdeal.Read
import proofs.«134577_j46729244180934_2_alg».proof.Proof.Spec

noncomputable section

open scoped BigOperators
open Idealize.ShloMosaic Idealize.ShloMosaic.TcCoe Idealize.SL.Sem Idealize.ShloMosaic.StableHlo Idealize.ShloMosaic.ValueIdx

namespace Cert.ReferenceIdeal.RefValue

open Cert.ReferenceIdeal Cert.ReferenceIdeal.Gen Cert.ReferenceIdeal.Read

/-! ## The index maps of the layout operations, at indices given by their coordinates -/

theorem idx_sum0 (b : Fin 8192) (k : Fin 4096) : idx_main_call0_v1 (ix1 b) k = ix2 b k :=
  funext fun a => Fin.ext (by match a with | ⟨0, _⟩ => rfl | ⟨1, _⟩ => rfl)

theorem idx_col0 (b : Fin 8192) (z : Fin 1) : idx_main_call0_v2 (ix2 b z) = ix1 b :=
  funext fun a => Fin.ext (by match a with | ⟨0, _⟩ => rfl)

/-- The sum of squares of row `b`, as the first program's reduction computes it from a zero start. -/
theorem sumSq0 (x : (⟨S8192x4096, .f32⟩ : BufTy).Contents (Elt Ideal)) (b : Fin 8192) :
    val_main_call0_v1 (F := Ideal) x (ix1 b) = Cert.Cosine.sumSq x b := by
  rw [val_main_call0_v1_apply, val_main_call0_cst_apply]
  simp only [val_main_call0_v0_apply, idx_sum0, Ideal.ofBits_def, Ideal.ofBits_zero_f32, zero_add, Ideal.mulf_def,
    Cert.Cosine.sumSq]

theorem norm0 (x : (⟨S8192x4096, .f32⟩ : BufTy).Contents (Elt Ideal)) (b : Fin 8192) (z : Fin 1) :
    val_main_v2 (F := Ideal) x (ix2 b z) = Cert.Cosine.rowNorm x b := by
  rw [val_main_v2_apply, val_main_v0_apply, val_main_call0_v2_apply, val_main_v1_apply, val_main_cst_apply, idx_col0, sumSq0]
  simp only [Ideal.hostUnary_sqrt_def, Ideal.maximumf_def, Ideal.ofBits_def, Cert.Cosine.rowNorm, Cert.Cosine.eps]

theorem idx_sum1 (o : Fin 8192) (k : Fin 4096) : idx_main_call1_v1 (ix1 o) k = ix2 o k :=
  funext fun a => Fin.ext (by match a with | ⟨0, _⟩ => rfl | ⟨1, _⟩ => rfl)

theorem idx_col1 (o : Fin 8192) (z : Fin 1) : idx_main_call1_v2 (ix2 o z) = ix1 o :=
  funext fun a => Fin.ext (by match a with | ⟨0, _⟩ => rfl)

/-- The sum of squares of row `o`, as the second program's reduction computes it from a zero start. -/
theorem sumSq1 (w : (⟨S8192x4096, .f32⟩ : BufTy).Contents (Elt Ideal)) (o : Fin 8192) :
    val_main_call1_v1 (F := Ideal) w (ix1 o) = Cert.Cosine.sumSq w o := by
  rw [val_main_call1_v1_apply, val_main_call1_cst_apply]
  simp only [val_main_call1_v0_apply, idx_sum1, Ideal.ofBits_def, Ideal.ofBits_zero_f32, zero_add, Ideal.mulf_def,
    Cert.Cosine.sumSq]

theorem norm1 (w : (⟨S8192x4096, .f32⟩ : BufTy).Contents (Elt Ideal)) (o : Fin 8192) (z : Fin 1) :
    val_main_v5 (F := Ideal) w (ix2 o z) = Cert.Cosine.rowNorm w o := by
  rw [val_main_v5_apply, val_main_v3_apply, val_main_call1_v2_apply, val_main_v4_apply, val_main_cst_0_apply, idx_col1, sumSq1]
  simp only [Ideal.hostUnary_sqrt_def, Ideal.maximumf_def, Ideal.ofBits_def, Cert.Cosine.rowNorm, Cert.Cosine.eps]

/-! ## The denominator and the numerator at `(b, o)` -/

theorem idx_bcast_col (b o : Fin 8192) : idx_main_v8 (ix2 b o) = ix2 b (0 : Fin 1) :=
  funext fun a => Fin.ext (by match a with | ⟨0, _⟩ => rfl | ⟨1, _⟩ => rfl)

theorem idx_bcast_row (b o : Fin 8192) : idx_main_v9 (ix2 b o) = ix2 (0 : Fin 1) o :=
  funext fun a => Fin.ext (by match a with | ⟨0, _⟩ => rfl | ⟨1, _⟩ => rfl)

theorem idx_transpose (z : Fin 1) (o : Fin 8192) : idx_main_v7 (ix2 z o) = ix2 o z :=
  funext fun a => Fin.ext (by match a with | ⟨0, _⟩ => rfl | ⟨1, _⟩ => rfl)

/-- The denominator at `(b, o)`: the clamped norm of row `b` of `x` times that of row `o` of `w`. -/
theorem den (x w : (⟨S8192x4096, .f32⟩ : BufTy).Contents (Elt Ideal)) (b o : Fin 8192) :
    val_main_v10 (F := Ideal) x w (ix2 b o) = Cert.Cosine.rowNorm x b * Cert.Cosine.rowNorm w o := by
  rw [val_main_v10_apply, val_main_v8_apply, val_main_v9_apply, val_main_v7_apply, idx_bcast_col, idx_bcast_row,
    idx_transpose, norm0, norm1, Ideal.mulf_def]

theorem lidx (b o : Fin 8192) (k : Fin 4096) : lidx_main_v6 (ix2 b o) k = ix2 b k :=
  funext fun a => Fin.ext (by match a with | ⟨0, _⟩ => rfl | ⟨1, _⟩ => rfl)

theorem ridx (b o : Fin 8192) (k : Fin 4096) : ridx_main_v6 (ix2 b o) k = ix2 o k :=
  funext fun a => Fin.ext (by match a with | ⟨0, _⟩ => rfl | ⟨1, _⟩ => rfl)

/-- The numerator at `(b, o)`: the inner product of row `b` of `x` and row `o` of `w`. -/
theorem num (x w : (⟨S8192x4096, .f32⟩ : BufTy).Contents (Elt Ideal)) (b o : Fin 8192) :
    val_main_v6 (F := Ideal) x w (ix2 b o) = Cert.Cosine.dotRows x w b o := by
  rw [val_main_v6_apply]
  simp only [lidx, ridx, Cert.Cosine.dotRows]

/-! ## The whole result -/

/-- The last stage is the clamped cosine similarity, index by index. -/
theorem stage_eq (x w : (⟨S8192x4096, .f32⟩ : BufTy).Contents (Elt Ideal)) :
    val_main_v11 (F := Ideal) x w = Cert.Cosine.cosine x w := by
  funext i
  obtain ⟨b, o, rfl⟩ : ∃ (b : Fin 8192) (o : Fin 8192), i = ix2 b o := ⟨i 0, i 1, eq_ix2 i⟩
  rw [val_main_v11_apply, num, den, Ideal.hostDivf_def, Cert.Cosine.cosine_ix2, Cert.Cosine.cosAt]

/-- The composed term the reference's run ends at is the clamped cosine similarity of the two arguments. -/
theorem result_eq (x w : (⟨S8192x4096, .f32⟩ : BufTy).Contents (Elt Ideal)) :
    Host.divf (F := Ideal) (Host.dotGeneral (φ₁ := .f32) (φ₂ := .f32) dot_S8192x4096_S8192x4096_S8192x8192_1_1_0_0_n_n none (x) (w)) (mulf (broadcastInDim S8192x8192 ![0, 1] bcast_S8192x1_S8192x8192_0_1 (maximumf (Host.sqrt (broadcastInDim S8192x1 ![0] bcast_S8192_S8192x1_0 (Host.reduceAdd (mulf (x) (x)) (constant S_ .f32 0x00000000#32) reducesTo_S8192x4096_S8192_d1 h_S_))) (broadcastInDim S8192x1 ![] bcast_S_S8192x1 (constant S_ .f32 0x322BCC77#32)))) (broadcastInDim S8192x8192 ![0, 1] bcast_S1x8192_S8192x8192_0_1 (transpose S1x8192 [1, 0] (maximumf (Host.sqrt (broadcastInDim S8192x1 ![0] bcast_S8192_S8192x1_0 (Host.reduceAdd (mulf (w) (w)) (constant S_ .f32 0x00000000#32) reducesTo_S8192x4096_S8192_d1 h_S_))) (broadcastInDim S8192x1 ![] bcast_S_S8192x1 (constant S_ .f32 0x322BCC77#32))) transposes_S8192x1_S1x8192_1_0)))
      = Cert.Cosine.cosine x w :=
  (val_main_v11_eq (F := Ideal) x w).trans (stage_eq x w)

/-- The reference's run: on every device the result buffer ends at the clamped cosine similarity of the two argument
    arrays as they were at launch, and the arguments are unchanged. -/
theorem run_spec (m : (ℓ : Loc nD τ sig) → Buf (Elt Ideal) ℓ) (ρ : Dev nD → PrngReg) :
    θ_run Cert.ReferenceIdeal.defs (onTc (τ := Cert.ReferenceIdeal.τ) (Cert.ReferenceIdeal.main (F := Ideal))) ⟨m, fun _ => 0, ρ⟩ fun r => ∀ c : Dev nD,
      r.2.mem ((c.tc : Thread nD τ).loc main_v11) = Cert.Cosine.cosine (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run Cert.ReferenceIdeal.defs _ _).mono (fun _ h c => ⟨(h c).1.trans (result_eq _ _), (h c).2⟩)
    (Cert.ReferenceIdeal.Value.run (F := Ideal) m ρ)

end Cert.ReferenceIdeal.RefValue

end
-- ==== Proof.lean ====
/-
  The certificate of the clamped cosine-similarity kernel against its reference.

  Both programs compute, for every row `b` of `x` and every row `o` of `weights`,
  `(∑ k, x[b,k] · w[o,k]) / (max (√(∑ k, x[b,k]²)) eps · max (√(∑ k, w[o,k]²)) eps)` (`Cert.Cosine.cosine`).
  The kernel program does it in three launches: a cast-and-norm launch on each operand (the 16-bit copy is the
  operand itself at the extended reals; the norm column is the clamped root of the row's sum of squares), the
  host's transpose of the weights' norm column, and a tiled matrix product that accumulates the inner product
  over four contraction blocks in a scratch accumulator and divides by the two norms at the last block. The
  reference does it in one matrix product and one division. The two agree because a sum of 4096 terms is the sum
  of its four blocks of 1024, accumulated from zero: only commutativity and associativity of addition on the
  extended reals, so the finiteness of the inputs is never used.

  The three frames: each kernel program runs to the end, faults nowhere and leaves its arguments unchanged
  (the run of its four segments, each launch from its own body obligation, the matrix-product launch with the
  accumulator carried in the region's invariant); the reference's frame is its run with the result dropped.
  The idealization rewrote nothing, so there is nothing to preserve.
-/
import proofs.«134577_j46729244180934_2_alg».proof.Defs
import proofs.«134577_j46729244180934_2_alg».proof.Proof.Gen.Kernel
import proofs.«134577_j46729244180934_2_alg».proof.Proof.Gen.KernelIdeal
import proofs.«134577_j46729244180934_2_alg».proof.Proof.Gen.ReferenceIdeal
import proofs.«134577_j46729244180934_2_alg».proof.Proof.Gen.Pre_finite_inputs
import proofs.«134577_j46729244180934_2_alg».proof.Proof.WMain
import proofs.«134577_j46729244180934_2_alg».proof.Proof.ValMain
import proofs.«134577_j46729244180934_2_alg».proof.Proof.RefValue

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefValue.run_spec m ρ)

theorem preserves : Cert.preserves_Kernel_KernelIdeal := trivial

/-- Both runs end with the result at the specification's function of arguments that agree. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Cosine.cosine (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Hand.run_cosine m ρ, ?_⟩
  refine (θ_run Cert.ReferenceIdeal.defs _ _).mono (fun _ h c => ⟨(h c).1.trans ?_, (h c).2⟩) (Cert.ReferenceIdeal.RefValue.run_spec m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
